-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x3 : Shape := ⟨2, ![100000, 3]⟩
abbrev S4x128 : Shape := ⟨2, ![4, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S2x1600000 : Shape := ⟨2, ![2, 1600000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S128 .f32) (main_arg8 : FVec F S128x8 .f32) (main_arg9 : FVec F S8 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x8 .f32 := Host.absf main_arg8
  let main_cst_14 : FVec F S_ .f32 := constant S_ .f32 0x7F800000#32
  let main_v40 : FVec F S128x8 .f32 := broadcastInDim S128x8 ![] bcast_S_S128x8 main_cst_14
  let main_v41 : IVec S128x8 1 := cmpf .olt main_v39 main_v40
  let main_c_15 : IVec S_ 1 := constantI S_ 1 1#1
  let main_v42 : IVec S_ 1 := (fun x v => Host.reduce IntOp.andi x v reducesTo_S128x8_S_d0_1 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x8 .f32) (main_arg9 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000 .f32) (main_arg1 : FVec F S100000x3 .f32) (main_arg2 : FVec F S4x128 .f32) (main_arg3 : FVec F S128 .f32) (main_arg4 : FVec F S128x128 .f32) (main_arg5 : FVec F S128 .f32) (main_arg6 : FVec F S128x128 .f32) (main_arg7 : FVec F S128 .f32) (main_arg8 : FVec F S128x8 .f32) (main_arg9 : FVec F S8 .f32) (main_arg10 : IVec S2x1600000 32) (main_arg11 : IVec S100000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000 : Shape := ⟨1, ![100000]⟩
abbrev S100000x3 : Shape := ⟨2, ![100000, 3]⟩
abbrev S4x128 : Shape := ⟨2, ![4, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S2x1600000 : Shape := ⟨2, ![2, 1600000]⟩
abbrev S100000x1 : Shape := ⟨2, ![100000, 1]⟩
abbrev S100000x4 : Shape := ⟨2, ![100000, 4]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x4 : Shape := ⟨2, ![5000, 4]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x8 : Shape := ⟨2, ![1, 8]⟩
abbrev S64x8 : Shape := ⟨2, ![64, 8]⟩
abbrev S64x8x1 : Shape := ⟨3, ![64, 8, 1]⟩

abbrev nBuf : Space → Nat
  | .hbm => 103
  | .vmem => 34
  | .smem => 0
  | _ => 0

abbrev bufTy : (tb : Table) → Fin (tcTables nBuf tb) → BufTy
  | .hbm, ⟨0, _⟩ => ⟨S100000, .f32⟩
  | .hbm, ⟨1, _⟩ => ⟨S100000x3, .f32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x8, .f32⟩
  | .hbm, ⟨9, _⟩ => ⟨S8, .f32⟩
  | .hbm, ⟨10, _⟩ => ⟨S2x1600000, .i32⟩
  | .hbm, ⟨11, _⟩ => ⟨S100000, .i32⟩
  | .hbm, ⟨12, _⟩ => ⟨S100000x1, .f32⟩
  | .hbm, ⟨13, _⟩ => ⟨S100000x4, .f32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S1x1600000, .i32⟩
  | .hbm, ⟨19, _⟩ => ⟨S1600000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S_, .f32⟩
  | .hbm, ⟨49, _⟩ => ⟨S100000x128, .f32⟩
  | .hbm, ⟨50, _⟩ => ⟨S1700000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S_, .f32⟩
  | .hbm, ⟨85, _⟩ => ⟨S64x128, .f32⟩
  | .hbm, ⟨86, _⟩ => ⟨S100000x1, .i32⟩
  | .hbm, ⟨87, _⟩ => ⟨S64x128, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S64, .f32⟩
  | .hbm, ⟨92, _⟩ => ⟨S100000x1, .i32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64x1, .f32⟩
  | .hbm, ⟨98, _⟩ => ⟨S64x128, .f32⟩
  | .hbm, ⟨99, _⟩ => ⟨S64x128, .f32⟩
  | .hbm, ⟨100, _⟩ => ⟨S1x8, .f32⟩
  | .hbm, ⟨101, _⟩ => ⟨S64x8, .f32⟩
  | .hbm, ⟨102, _⟩ => ⟨S64x8x1, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S64x128, .f32⟩
  | .local _ .vmem, ⟨31, _⟩ => ⟨S128x8, .f32⟩
  | .local _ .vmem, ⟨32, _⟩ => ⟨S1x8, .f32⟩
  | .local _ .vmem, ⟨33, _⟩ => ⟨S64x8, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x8 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S100000_S100000x1_0 : S100000.BroadcastsInDim S100000x1 (![0] : Fin 1 → Fin S100000x1.rank)
  concatenates_S100000x1_S100000x3_S100000x4_d1 : Shape.Concatenates [S100000x1, S100000x3] S100000x4 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S8_S1x8 : S8.ShapeCasts S1x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  reduces_S64x8_S64 : S64x8.Reduces [1] S64
  shapeCasts_S64_S64x1 : S64.ShapeCasts S64x1
  broadcasts_S64x1_S64x8 : S64x1.Broadcasts S64x8
  inb_S64x8_S64x8_0_0 : ∀ a, (![0, 0] : Fin 2 → Nat) a + S64x8.size a ≤ S64x8.size a
  h_S64x8 : 0 < S64x8.numel
  bcast_S64x8_S64x8x1_0_1 : S64x8.BroadcastsInDim S64x8x1 (![0, 1] : Fin 2 → Fin S64x8x1.rank)
  scatter_S100000_S1700000x1_S1700000_n_0_0_1_wf : ScatterDims.WF S100000 S1700000x1 S1700000 [] [0] [0] 1
  dot_S5000x4_S4x128_S5000x128_1_0_0_1_n_n_wf : DotDims.WF S5000x4 S4x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x8.size a ≤ S128x8.size a
  hwx4_1 : ∀ i : grid4.Coords, EltTy.bits .f32 = 32 ∨ (Rect.block (s := S128x8) S128x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x8.size a ≤ S64x8.size a
  hwx4_3 : ∀ i : grid4.Coords, EltTy.bits .f32 = 32 ∨ (Rect.block (s := S64x8) S64x8.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_v1) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S64x8.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000 : Shape := ⟨1, ![100000]⟩
abbrev S100000x3 : Shape := ⟨2, ![100000, 3]⟩
abbrev S4x128 : Shape := ⟨2, ![4, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S2x1600000 : Shape := ⟨2, ![2, 1600000]⟩
abbrev S100000x1 : Shape := ⟨2, ![100000, 1]⟩
abbrev S100000x4 : Shape := ⟨2, ![100000, 4]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x8 : Shape := ⟨2, ![64, 8]⟩
abbrev S1x8 : Shape := ⟨2, ![1, 8]⟩
abbrev S64x8x1 : Shape := ⟨3, ![64, 8, 1]⟩

abbrev nBuf : Space → Nat
  | .hbm => 160
  | .vmem => 0
  | .smem => 0
  | _ => 0

abbrev hbmTy0_0 (i : Nat) : BufTy := match i % 128 with
  | 0 => ⟨S100000, .f32⟩
  | 1 => ⟨S100000x3, .f32⟩
  | 2 => ⟨S4x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x8, .f32⟩
  | 9 => ⟨S8, .f32⟩
  | 10 => ⟨S2x1600000, .i32⟩
  | 11 => ⟨S100000, .i32⟩
  | 12 => ⟨S100000x1, .f32⟩
  | 13 => ⟨S100000x4, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x1, .f32⟩
  | 90 => ⟨S1700000x128, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S64x128, .f32⟩
  | 127 => ⟨S100000x1, .i32⟩
  | _ => ⟨S100000, .f32⟩

abbrev hbmTy0_1 (i : Nat) : BufTy := match i % 128 with
  | 0 => ⟨S64x128, .f32⟩
  | 1 => ⟨S_, .f32⟩
  | 2 => ⟨S100000, .f32⟩
  | 3 => ⟨S_, .f32⟩
  | 4 => ⟨S64, .f32⟩
  | 5 => ⟨S100000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x128, .f32⟩
  | 12 => ⟨S64x128, .f32⟩
  | 13 => ⟨S64x8, .f32⟩
  | 14 => ⟨S1x8, .f32⟩
  | 15 => ⟨S64x8, .f32⟩
  | 16 => ⟨S64x8, .f32⟩
  | 17 => ⟨S_, .f32⟩
  | 18 => ⟨S64, .f32⟩
  | 19 => ⟨S_, .f32⟩
  | 20 => ⟨S64, .f32⟩
  | 21 => ⟨S64, .f32⟩
  | 22 => ⟨S64x1, .f32⟩
  | 23 => ⟨S64x8, .f32⟩
  | 24 => ⟨S64x8, .f32⟩
  | 25 => ⟨S64x8, .f32⟩
  | 26 => ⟨S_, .f32⟩
  | 27 => ⟨S64, .f32⟩
  | 28 => ⟨S64x1, .f32⟩
  | 29 => ⟨S64x8, .f32⟩
  | 30 => ⟨S64x8, .f32⟩
  | 31 => ⟨S64x8x1, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_cst : Ref sig .tc := ⟨.hbm, 99, rfl⟩
abbrev main_call2_v0 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_call3_cst : Ref sig .tc := ⟨.hbm, 122, rfl⟩
abbrev main_call3_v0 : Ref sig .tc := ⟨.hbm, 123, rfl⟩
abbrev main_v86 : Ref sig .tc := ⟨.hbm, 124, rfl⟩
abbrev main_cst_16 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_cst_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_22 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  concatenates_S100000x1_S100000x3_S100000x4_d1 : Shape.Concatenates [S100000x1, S100000x3] S100000x4 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  reducesTo_S64x8_S64_d1 : S64x8.ReducesTo [1] S64
  h_S_ : 0 < S_.numel
  bcast_S64x1_S64x8_0_1 : S64x1.BroadcastsInDim S64x8 (![0, 1] : Fin 2 → Fin S64x8.rank)
  bcast_S64x8_S64x8x1_0_1 : S64x8.BroadcastsInDim S64x8x1 (![0, 1] : Fin 2 → Fin S64x8x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x4_S4x128_S100000x128_1_0_0_1_n_n_wf : DotDims.WF S100000x4 S4x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x8_S64x8_1_0_0_1_n_n_wf : DotDims.WF S64x128 S128x8 S64x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

class Facts : Prop extends Facts₀ where

variable [Facts]
-- ==== Proof.KernelRun.lean ====
/-
  The idealized kernel program's run with its RESULT kept: every weakly fair execution of @main terminates
  without a fault, the arguments end as launched, and the result buffer ends at the contents the last boundary
  of the run holds for it (the fold of every host stretch and of every region's write-backs from the launch
  memory).  The run is the launch of @main's thirteen segments; the final thread state holds every unscoped
  buffer at the last boundary's contents, and the post reads the result and the arguments off it.
-/
import proofs.«119056_j34703335751945_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run with the result: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v70) = W13 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v70 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Run

end
-- ==== Proof.ChainEntry.lean ====
/-
  The idealized kernel program's buffers before its first region, as the reference's own stages of the
  arguments: both programs compute the node features, the edge lists with their self loops, the degrees and the
  node factors by the same host operations, so each such buffer IS the reference's stage, by unfolding.
  A buffer that no later segment writes keeps its contents from one boundary of the run to a later one.
-/
import proofs.«119056_j34703335751945_2_alg».proof.Proof.Gen.KernelIdeal.Frame
import proofs.«119056_j34703335751945_2_alg».proof.Proof.RefReadP

import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 1000000 in
/-- After the first host stretch buffer `main_v1` holds the reference's stage `val_main_v1` of the arguments. -/
theorem pre_main_v1 : W1 (F := Ideal) m ρ c (Proc.devRef .tc main_v1)
    = Cert.ReferenceIdeal.ReadP.val_main_v1 (F := Ideal) (m ((c.tc : Thread nD τ).loc main_arg0)) (m ((c.tc : Thread nD τ).loc main_arg1)) := by
  dsimp only [W1]
  after_results_simp
  rfl

set_option maxHeartbeats 1000000 in
/-- After the first host stretch buffer `main_v5` holds the reference's stage `val_main_v5` of the arguments. -/
theorem pre_main_v5 : W1 (F := Ideal) m ρ c (Proc.devRef .tc main_v5)
    = Cert.ReferenceIdeal.ReadP.val_main_v5 (F := Ideal) (m ((c.tc : Thread nD τ).loc main_arg10)) := by
  dsimp only [W1]
  after_results_simp
  rfl

set_option maxHeartbeats 1000000 in
/-- After the first host stretch buffer `main_v8` holds the reference's stage `val_main_v8` of the arguments. -/
theorem pre_main_v8 : W1 (F := Ideal) m ρ c (Proc.devRef .tc main_v8)
    = Cert.ReferenceIdeal.ReadP.val_main_v8 (F := Ideal) (m ((c.tc : Thread nD τ).loc main_arg10)) := by
  dsimp only [W1]
  after_results_simp
  rfl

set_option maxHeartbeats 1000000 in
/-- After the first host stretch buffer `main_v14` holds the reference's stage `val_main_v14` of the arguments. -/
theorem pre_main_v14 : W1 (F := Ideal) m ρ c (Proc.devRef .tc main_v14)
    = Cert.ReferenceIdeal.ReadP.val_main_v14 (F := Ideal) (m ((c.tc : Thread nD τ).loc main_arg10)) := by
  dsimp only [W1]
  after_results_simp
  rfl

set_option maxHeartbeats 1000000 in
/-- After the first host stretch buffer `main_v16` holds the reference's stage `val_main_v16` of the arguments. -/
theorem pre_main_v16 : W1 (F := Ideal) m ρ c (Proc.devRef .tc main_v16)
    = Cert.ReferenceIdeal.ReadP.val_main_v16 (F := Ideal) (m ((c.tc : Thread nD τ).loc main_arg10)) := by
  dsimp only [W1]
  after_results_simp
  rfl

set_option maxHeartbeats 1000000 in
/-- The literal zero the `where` broadcasts. -/
theorem pre_main_cst_3 : W1 (F := Ideal) m ρ c (Proc.devRef .tc main_cst_3) = Cert.ReferenceIdeal.ReadP.val_main_cst_3 (F := Ideal) := by
  dsimp only [W1]
  after_results_simp
  rfl

/-- The outlined `where`: its result buffer holds the selection of its operands, the zero literal broadcast. -/
theorem where_stage (a : (⟨S100000, .i1⟩ : BufTy).Contents (Elt Ideal)) (b : (⟨S100000, .f32⟩ : BufTy).Contents (Elt Ideal))
    (z : (⟨S_, .f32⟩ : BufTy).Contents (Elt Ideal)) :
    (TRef.of (sig := sig) (T := ⟨S100000, .f32⟩) main_v17).toBuf
      (select ((TRef.of (sig := sig) (T := ⟨S100000, .i1⟩) main_v14).ofBuf a)
        ((TRef.of (sig := sig) (T := ⟨S100000, .f32⟩) main_v16).ofBuf b)
        ((TRef.of (sig := sig) (T := ⟨S100000, .f32⟩) main_call0_v1).ofBuf
          ((TRef.of (sig := sig) (T := ⟨S100000, .f32⟩) main_call0_v1).toBuf
            (broadcastInDim S100000 ![] bcast_S_S100000
              ((TRef.of (sig := sig) (T := ⟨S_, .f32⟩) main_call0_v0).ofBuf
                ((TRef.of (sig := sig) (T := ⟨S_, .f32⟩) main_call0_v0).toBuf
                  (id ((TRef.of (sig := sig) (T := ⟨S_, .f32⟩) main_cst_3).ofBuf z))))))))
      = select a b (broadcastInDim S100000 ![] bcast_S_S100000 (id z)) := rfl

set_option maxHeartbeats 1000000 in
/-- The node factors: the reference's stage `val_main_v17` (the `where` of the power and zero). -/
theorem factors : W2 (F := Ideal) m ρ c (Proc.devRef .tc main_v17) = Cert.ReferenceIdeal.ReadP.val_main_v17 (F := Ideal) (m ((c.tc : Thread nD τ).loc main_arg10)) := by
  dsimp only [W2]
  generalize hV : W1 (F := Ideal) m ρ c = V1
  after_results_simp
  subst hV
  rw [pre_main_v14, pre_main_v16, pre_main_cst_3]
  exact (where_stage _ _ _).trans rfl

/-- The node factors as a column: the reference's stage reshaped to 100000 × 1. -/
def factorColumn : S100000x1.Idx → EReal :=
  shapeCast S100000x1 (Cert.ReferenceIdeal.ReadP.val_main_v17 (F := Ideal) (m ((c.tc : Thread nD τ).loc main_arg10))) shapeCasts_S100000_S100000x1

set_option maxHeartbeats 1000000 in
theorem column : W3 (F := Ideal) m ρ c (Proc.devRef .tc main_v18) = factorColumn m c := by
  dsimp only [W3]
  generalize hV : W2 (F := Ideal) m ρ c = V2
  after_results_simp
  subst hV
  rw [factors]
  rfl

theorem keep_v1_1_3 : W3 (F := Ideal) m ρ c (Proc.devRef .tc main_v1) = W1 (F := Ideal) m ρ c (Proc.devRef .tc main_v1) :=
  calc W3 (F := Ideal) m ρ c (Proc.devRef .tc main_v1)
    _ = W2 (F := Ideal) m ρ c (Proc.devRef .tc main_v1) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_v1) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_arg2_0_3 : W3 (F := Ideal) m ρ c (Proc.devRef .tc main_arg2) = W0 (F := Ideal) m ρ c (Proc.devRef .tc main_arg2) :=
  calc W3 (F := Ideal) m ρ c (Proc.devRef .tc main_arg2)
    _ = W2 (F := Ideal) m ρ c (Proc.devRef .tc main_arg2) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg2) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg2) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_v5_1_4 : W4 (F := Ideal) m ρ c (Proc.devRef .tc main_v5) = W1 (F := Ideal) m ρ c (Proc.devRef .tc main_v5) :=
  calc W4 (F := Ideal) m ρ c (Proc.devRef .tc main_v5)
    _ = W3 (F := Ideal) m ρ c (Proc.devRef .tc main_v5) := W4_of_ne m ρ c main_v5 (by decide)
    _ = W2 (F := Ideal) m ρ c (Proc.devRef .tc main_v5) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_v5) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_v8_1_4 : W4 (F := Ideal) m ρ c (Proc.devRef .tc main_v8) = W1 (F := Ideal) m ρ c (Proc.devRef .tc main_v8) :=
  calc W4 (F := Ideal) m ρ c (Proc.devRef .tc main_v8)
    _ = W3 (F := Ideal) m ρ c (Proc.devRef .tc main_v8) := W4_of_ne m ρ c main_v8 (by decide)
    _ = W2 (F := Ideal) m ρ c (Proc.devRef .tc main_v8) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_v8) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_arg3_0_4 : W4 (F := Ideal) m ρ c (Proc.devRef .tc main_arg3) = W0 (F := Ideal) m ρ c (Proc.devRef .tc main_arg3) :=
  calc W4 (F := Ideal) m ρ c (Proc.devRef .tc main_arg3)
    _ = W3 (F := Ideal) m ρ c (Proc.devRef .tc main_arg3) := W4_of_ne m ρ c main_arg3 (by decide)
    _ = W2 (F := Ideal) m ρ c (Proc.devRef .tc main_arg3) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg3) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg3) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_v18_3_5 : W5 (F := Ideal) m ρ c (Proc.devRef .tc main_v18) = W3 (F := Ideal) m ρ c (Proc.devRef .tc main_v18) :=
  calc W5 (F := Ideal) m ρ c (Proc.devRef .tc main_v18)
    _ = W4 (F := Ideal) m ρ c (Proc.devRef .tc main_v18) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_v18) := (W4_arr m ρ c 2).trans (((dat0 (V3 m ρ) c).arrAt_in 2 rfl _).trans (A_eq0 (V3 m ρ) c 2))

theorem keep_arg4_0_5 : W5 (F := Ideal) m ρ c (Proc.devRef .tc main_arg4) = W0 (F := Ideal) m ρ c (Proc.devRef .tc main_arg4) :=
  calc W5 (F := Ideal) m ρ c (Proc.devRef .tc main_arg4)
    _ = W4 (F := Ideal) m ρ c (Proc.devRef .tc main_arg4) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_arg4) := W4_of_ne m ρ c main_arg4 (by decide)
    _ = W2 (F := Ideal) m ρ c (Proc.devRef .tc main_arg4) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg4) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg4) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

end Cert.KernelIdeal.Chain

end
-- ==== Proof.GcnSpec.lean ====
/-
  The graph network's layers as plain functions of arrays over the extended reals, index by index.
  A node's feature row is the matrix product of its input row with the layer's weights; the network
  scales rows by a per-node factor `d n` (the inverse square root of the node's degree), adds a bias
  row and clamps at zero.  Stated over the literal extents of this network: 100000 nodes, 4 input
  features, 128 hidden features.
-/
import Idealize.ShloMosaic.PureOps.Ideal
import Idealize.ShloMosaic.Lib.ValueIdx

noncomputable section

namespace Cert.GcnSpec

open Idealize.ShloMosaic Idealize.ShloMosaic.ValueIdx

/-- A matrix of extended reals with `r` rows and `c` columns. -/
abbrev Mat (r c : Nat) : Type := (⟨2, ![r, c]⟩ : Shape).Idx → EReal

/-- Row `n` of the product `x · w`, scaled by the node's factor `d n`:
    `(∑ t, x n t · w t j) · d n`. -/
def scaledProduct (x : Mat 100000 4) (w : Mat 4 128) (d : Mat 100000 1) : Mat 100000 128 :=
  fun i => (∑ t : Fin 4, x (ix2 (i 0 : Fin 100000) t) * w (ix2 t (i 1 : Fin 128))) * d (ix2 (i 0 : Fin 100000) (0 : Fin 1))

/-- A layer's activation from the aggregated rows `a`: `max (a n j · d n + b j) 0`. -/
def activation (a : Mat 100000 128) (d : Mat 100000 1) (b : Mat 1 128) : Mat 100000 128 :=
  fun i => max (a i * d (ix2 (i 0 : Fin 100000) (0 : Fin 1)) + b (ix2 (0 : Fin 1) (i 1 : Fin 128))) 0

/-- The activation followed by the next layer's scaled product:
    `(∑ t, activation n t · w t j) · d n`. -/
def transition (a : Mat 100000 128) (d : Mat 100000 1) (b : Mat 1 128) (w : Mat 128 128) : Mat 100000 128 :=
  fun i => (∑ t : Fin 128, activation a d b (ix2 (i 0 : Fin 100000) t) * w (ix2 t (i 1 : Fin 128))) * d (ix2 (i 0 : Fin 100000) (0 : Fin 1))

end Cert.GcnSpec

end
-- ==== Proof.Region0.lean ====
/-
  The array the first layer's product leaves.  The grid has 20 points; point `t` reads rows
  `5000 t … 5000 t + 4999` of the node features and of the per-node factor column, reads the whole
  4 × 128 weight matrix, and writes rows `5000 t … 5000 t + 4999` of the output.  Entry `(p, q)` of
  what it writes is `(∑ k, x (5000 t + p, k) · w (k, q)) · d (5000 t + p)`: the product into a zero
  accumulator is the plain sum over the four input features, and the factor column is broadcast
  along the row.  The 20 row blocks tile the 100000 rows, so the output array ends holding the
  scaled product of the arrays the region finds, index by index.
-/
import proofs.«119056_j34703335751945_2_alg».proof.Proof.Gen.KernelIdeal.Frame
import proofs.«119056_j34703335751945_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionArrays

open Cert.KernelIdeal Cert.KernelIdeal.Gen Idealize.ShloMosaic Idealize.ShloMosaic.TcCoe Idealize.SL.Sem
open Idealize.ShloMosaic.ValueIdx
open Idealize.ShloMosaic.Pipeline (Dat)
open Cert.GcnSpec

/-- A column `[a, 1]` broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read in the output's row, -/
theorem dot0_lhs_row (i : S5000x128.Idx) (q : dot_S5000x4_S4x128_S5000x128_1_0_0_1_n_n.contr.Idx) :
    (dot_S5000x4_S4x128_S5000x128_1_0_0_1_n_n.lhsIdx i q 0).val = (i 0).val := by
  unfold DotDims.lhsIdx
  rw [dif_neg (show ¬(0 : Fin S5000x4.rank) ∈ dot_S5000x4_S4x128_S5000x128_1_0_0_1_n_n.lhsBatch by decide), dif_pos (show (0 : Fin S5000x4.rank) ∈ dot_S5000x4_S4x128_S5000x128_1_0_0_1_n_n.lhsNonContracting by decide)]
  rfl
/-- at the contracted feature; -/
theorem dot0_lhs_col (i : S5000x128.Idx) (q : dot_S5000x4_S4x128_S5000x128_1_0_0_1_n_n.contr.Idx) :
    (dot_S5000x4_S4x128_S5000x128_1_0_0_1_n_n.lhsIdx i q 1).val = (q ⟨0, by decide⟩).val :=
  dot_S5000x4_S4x128_S5000x128_1_0_0_1_n_n.lhsIdx_val_of_single rfl i q
/-- the right operand at the contracted feature, -/
theorem dot0_rhs_row (i : S5000x128.Idx) (q : dot_S5000x4_S4x128_S5000x128_1_0_0_1_n_n.contr.Idx) :
    (dot_S5000x4_S4x128_S5000x128_1_0_0_1_n_n.rhsIdx i q 0).val = (q ⟨0, by decide⟩).val :=
  dot_S5000x4_S4x128_S5000x128_1_0_0_1_n_n.rhsIdx_val_of_single rfl i q
/-- in the output's column. -/
theorem dot0_rhs_col (i : S5000x128.Idx) (q : dot_S5000x4_S4x128_S5000x128_1_0_0_1_n_n.contr.Idx) :
    (dot_S5000x4_S4x128_S5000x128_1_0_0_1_n_n.rhsIdx i q 1).val = (i 1).val := by
  unfold DotDims.rhsIdx
  rw [dif_neg (show ¬(1 : Fin S4x128.rank) ∈ dot_S5000x4_S4x128_S5000x128_1_0_0_1_n_n.rhsBatch by decide), dif_pos (show (1 : Fin S4x128.rank) ∈ dot_S5000x4_S4x128_S5000x128_1_0_0_1_n_n.rhsNonContracting by decide)]
  rfl

/-- The block product read at `(p, q)`: the sum over the four input features. -/
theorem matmul_block0_apply (y0 : FVec Ideal S5000x4 .bf16) (y1 : FVec Ideal S4x128 .bf16) (p : Fin 5000) (q : Fin 128) :
    matmul dot_S5000x4_S4x128_S5000x128_1_0_0_1_n_n none y0 y1 (constant (F := Ideal) S5000x128 .f32 0x00000000#32) (ix2 p q)
      = ∑ k : Fin 4, y0 (ix2 p k) * y1 (ix2 k q) := by
  simp only [matmul]
  rw [Ideal.matmul_constant_zero_apply, ← Equiv.sum_comp (contrEquiv1 dot_S5000x4_S4x128_S5000x128_1_0_0_1_n_n 4 rfl rfl).symm]
  refine Finset.sum_congr rfl fun k _ => ?_
  have hk := contrEquiv1_symm_val dot_S5000x4_S4x128_S5000x128_1_0_0_1_n_n 4 rfl rfl k
  have el : dot_S5000x4_S4x128_S5000x128_1_0_0_1_n_n.lhsIdx (ix2 p q) ((contrEquiv1 dot_S5000x4_S4x128_S5000x128_1_0_0_1_n_n 4 rfl rfl).symm k) = ix2 p k := funext fun a => Fin.ext (by
    match a with
    | ⟨0, _⟩ => exact dot0_lhs_row _ _
    | ⟨1, _⟩ => exact (dot0_lhs_col _ _).trans hk)
  have er : dot_S5000x4_S4x128_S5000x128_1_0_0_1_n_n.rhsIdx (ix2 p q) ((contrEquiv1 dot_S5000x4_S4x128_S5000x128_1_0_0_1_n_n 4 rfl rfl).symm k) = ix2 k q := funext fun a => Fin.ext (by
    match a with
    | ⟨0, _⟩ => exact (dot0_rhs_row _ _).trans hk
    | ⟨1, _⟩ => exact dot0_rhs_col _ _)
  rw [el, er]

/-- The body's result at `(p, q)` of a block. -/
theorem pay0_apply (x0 : Vec Ideal S5000x4 .f32) (x1 : Vec Ideal S4x128 .f32) (x2 : Vec Ideal S5000x1 .f32) (p : Fin 5000) (q : Fin 128) :
    k0_pay1 (F := Ideal) x0 x1 x2 (ix2 p q) = (∑ k : Fin 4, x0 (ix2 p k) * x1 (ix2 k q)) * x2 (ix2 p (0 : Fin 1)) := by
  unfold k0_pay1
  rw [mulf_apply, matmul_block0_apply, shapeCast_self, shapeCast_self, broadcastTo_a1_ab_apply]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point `t`: the row-blocked operands at block row `t`, the weights whole. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `5000 t + p` of the input array. -/
theorem input_block0 (c : Dev nD) (t : Fin cfg0.N) (p : Fin 5000) (k : Fin 4) (r : Fin 100000) (hr : r.val = 5000 * t.val + p.val) :
    (iblk0 V c 0 t : Vec Ideal S5000x4 .f32) (ix2 p k) = (V c (Pipeline.arrRef spec0 0) : S100000x4.Idx → EReal) (ix2 r k) := by
  obtain ⟨e00, e01, -⟩ := block_index0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 4 + 1 * k.val = k.val; omega

/-- The weights' block at every point is the whole weight matrix. -/
theorem weight_block0 (c : Dev nD) (t : Fin cfg0.N) (k : Fin 4) (q : Fin 128) :
    (iblk0 V c 1 t : Vec Ideal S4x128 .f32) (ix2 k q) = (V c (Pipeline.arrRef spec0 1) : S4x128.Idx → EReal) (ix2 k q) := by
  obtain ⟨-, -, e10, e11, -⟩ := block_index0 t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 4 + 1 * k.val = k.val; omega
  | ⟨1, _⟩ => show win0_1.index t (1 : Fin 2) * 128 + 1 * q.val = q.val; omega

/-- Row `p` of the factor column's block at point `t` is row `5000 t + p` of the factor column. -/
theorem factor_block0 (c : Dev nD) (t : Fin cfg0.N) (p : Fin 5000) (r : Fin 100000) (hr : r.val = 5000 * t.val + p.val) :
    (iblk0 V c 2 t : Vec Ideal S5000x1 .f32) (ix2 p (0 : Fin 1)) = (V c (Pipeline.arrRef spec0 2) : S100000x1.Idx → EReal) (ix2 r (0 : Fin 1)) := by
  obtain ⟨-, -, -, -, e20, e21, -⟩ := block_index0 t
  show V c (Pipeline.arrRef spec0 2) (((cfg0.win 2).blk t).view.emb (ix2 p (0 : Fin 1))) = V c (Pipeline.arrRef spec0 2) (ix2 r (0 : Fin 1))
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- The body's result on blocks that are rows `5000 T …` of the arrays is those rows of the scaled product. -/
theorem block_scaledProduct (x0 : Vec Ideal S5000x4 .f32) (x1 : Vec Ideal S4x128 .f32) (x2 : Vec Ideal S5000x1 .f32)
    (a0 : Mat 100000 4) (a1 : Mat 4 128) (a2 : Mat 100000 1) (T : ℕ)
    (h0 : ∀ (p : Fin 5000) (k : Fin 4) (r : Fin 100000), r.val = 5000 * T + p.val → x0 (ix2 p k) = a0 (ix2 r k))
    (h1 : ∀ (k : Fin 4) (q : Fin 128), x1 (ix2 k q) = a1 (ix2 k q))
    (h2 : ∀ (p : Fin 5000) (r : Fin 100000), r.val = 5000 * T + p.val → x2 (ix2 p (0 : Fin 1)) = a2 (ix2 r (0 : Fin 1)))
    (y : S5000x128.Idx) (i : S100000x128.Idx) (hi0 : (i 0).val = 5000 * T + (y 0).val) (hi1 : (i 1).val = (y 1).val) :
    k0_pay1 (F := Ideal) x0 x1 x2 y = scaledProduct a0 a1 a2 i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = 5000 * T + p.val := hi0
  obtain rfl : s = q := Fin.ext hi1
  rw [pay0_apply]
  show _ = (∑ k : Fin 4, a0 (ix2 r k) * a1 (ix2 k s)) * a2 (ix2 r (0 : Fin 1))
  rw [h2 p r hr]
  exact congrArg (· * _) (Finset.sum_congr rfl fun k _ => by rw [h0 p k r hr, h1 k s])

/-- What point `t` writes back is block `t` of the scaled product of the arrays the region finds. -/
theorem flushed0_eq (c : Dev nD) (t : Fin cfg0.N) :
    (dat0 (F := Ideal) V c).flushed 3 t = ((cfg0.win 3).blk t).view.read (Elt Ideal)
      (scaledProduct (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S5000x4) zero_offsets, View.ld_unit_zero (S := S4x128) zero_offsets, View.ld_unit_zero (S := S5000x1) zero_offsets]
  obtain ⟨-, -, -, -, -, -, e30, e31⟩ := block_index0 t
  funext j
  refine block_scaledProduct (iblk0 V c 0 t) (iblk0 V c 1 t) (iblk0 V c 2 t) _ _ _ t.val
    (fun p k r hr => input_block0 V c t p k r hr) (fun k q => weight_block0 V c t k q) (fun p r hr => factor_block0 V c t p r hr)
    j (((cfg0.win 3).blk t).view.emb j) ?_ ?_
  · show win0_3.index t (0 : Fin 2) * 5000 + 1 * (j 0).val = 5000 * t.val + (j 0).val; omega
  · show win0_3.index t (1 : Fin 2) * 128 + 1 * (j 1).val = (j 1).val; omega

/-- An index of the output array is in point `t`'s block iff each coordinate is in the block's range on its axis. -/
theorem mem_block0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v19).slice (win0_3.rect t)).set ↔ _
  rw [View.set_slice_whole, Rect.mem_set_unit]
  exact Iff.rfl

/-- Every row is in some point's block: row `n` in that of point `n / 5000`. -/
theorem covered0 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : grid0.N = 20 := N_0
  obtain ⟨t, ht⟩ : ∃ t : Fin cfg0.N, t.val = (i 0).val / 5000 := ⟨⟨(i 0).val / 5000, by show _ < grid0.N; omega⟩, rfl⟩
  obtain ⟨-, -, -, -, -, -, e30, e31⟩ := block_index0 t
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array region 0 leaves: the scaled product of the arrays it finds. -/
theorem array0 (c : Dev nD) :
    ((Gen.dat0 (F := Ideal) V c).arrAt 3 cfg0.N) = scaledProduct (V c (Pipeline.arrRef spec0 0)) (V c (Pipeline.arrRef spec0 1)) (V c (Pipeline.arrRef spec0 2)) :=
  (dat0 V c).arrAt_eq_of_cover 3 _ (fun t _ => flushed0_eq V c t) covered0

end Cert.KernelIdeal.RegionArrays
end
-- ==== Proof.Region1.lean ====
/-
  The array the first fused layer transition leaves.  The grid has 20 points; point `t` reads
  rows `5000 t … 5000 t + 4999` of the aggregated features and of the per-node factor column,
  reads the whole bias row and the whole 128 × 128 weight matrix, and writes rows
  `5000 t … 5000 t + 4999` of the output.  Entry `(p, q)` of what it writes is
  `(∑ k, max (a (5000 t + p, k) · d (5000 t + p) + b k) 0 · w (k, q)) · d (5000 t + p)`: the factor
  column is broadcast along the row, the bias row down the column, the clamp is against the zero
  word, and the product into a zero accumulator is the plain sum over the 128 hidden features.  The
  20 row blocks tile the 100000 rows, so the output array ends holding the layer transition of the
  arrays the region finds, index by index.
-/
import proofs.«119056_j34703335751945_2_alg».proof.Proof.Gen.KernelIdeal.Frame
import proofs.«119056_j34703335751945_2_alg».proof.Proof.GcnSpec
import proofs.«119056_j34703335751945_2_alg».proof.Proof.Region0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionArrays

open Cert.KernelIdeal Cert.KernelIdeal.Gen Idealize.ShloMosaic Idealize.ShloMosaic.TcCoe Idealize.SL.Sem
open Idealize.ShloMosaic.ValueIdx
open Idealize.ShloMosaic.Pipeline (Dat)
open Cert.GcnSpec

/-- The product's left operand is read in the output's row, -/
theorem dot1_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- at the contracted feature; -/
theorem dot1_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted feature, -/
theorem dot1_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- in the output's column. -/
theorem dot1_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product read at `(p, q)`: the sum over the 128 hidden features. -/
theorem matmul_block1_apply (y0 : FVec Ideal S5000x128 .bf16) (y1 : FVec Ideal S128x128 .bf16) (p : Fin 5000) (q : Fin 128) :
    matmul dot_S5000x128_S128x128_S5000x128_1_0_0_1_n_n none y0 y1 (constant (F := Ideal) S5000x128 .f32 0x00000000#32) (ix2 p q)
      = ∑ k : Fin 128, y0 (ix2 p k) * y1 (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dot1_lhs_row _ _
    | ⟨1, _⟩ => exact (dot1_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot1_rhs_row _ _).trans hk
    | ⟨1, _⟩ => exact dot1_rhs_col _ _)
  rw [el, er]

/-- The body's result at `(p, q)` of a block: the clamped, biased, scaled row times the weights' column, scaled again. -/
theorem pay1_apply (x0 : Vec Ideal S5000x128 .f32) (x1 : Vec Ideal S5000x1 .f32) (x2 : Vec Ideal S1x128 .f32) (x3 : Vec Ideal S128x128 .f32) (x4 : Vec Ideal S5000x1 .f32)
    (p : Fin 5000) (q : Fin 128) :
    k1_pay1 (F := Ideal) x0 x1 x2 x3 x4 (ix2 p q)
      = (∑ k : Fin 128, max (x0 (ix2 p k) * x1 (ix2 p (0 : Fin 1)) + x2 (ix2 (0 : Fin 1) k)) 0 * x3 (ix2 k q)) * x4 (ix2 p (0 : Fin 1)) := by
  unfold k1_pay1
  simp only [shapeCast_self]
  rw [mulf_apply, matmul_block1_apply, broadcastTo_a1_ab_apply]
  refine congrArg (· * _) (Finset.sum_congr rfl fun k _ => ?_)
  rw [truncf_apply, truncf_apply, maximumf_apply, addf_apply, mulf_apply, broadcast_apply, broadcastTo_a1_ab_apply, broadcastTo_1b_ab_apply]
  show max _ (Ideal.ofBits .f32 0x00000000#32) * _ = _
  rw [Ideal.ofBits_zero_f32]

variable (V : (c : Dev nD) → (b : Ref sig .tc) → Buf (Elt Ideal) ((c : Thread nD τ).loc b))

/-- Where each window's block sits at grid point `t`: the row-blocked operands at block row `t`, the bias row and the weights whole. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the aggregated rows' block at point `t` is row `5000 t + p` of the array. -/
theorem rows_block1 (c : Dev nD) (t : Fin cfg1.N) (p : Fin 5000) (k : Fin 128) (r : Fin 100000) (hr : r.val = 5000 * t.val + p.val) :
    (iblk1 V c 0 t : Vec Ideal S5000x128 .f32) (ix2 p k) = (V c (Pipeline.arrRef spec1 0) : S100000x128.Idx → EReal) (ix2 r k) := by
  obtain ⟨e00, e01, -⟩ := block_index1 t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the factor column's block at point `t` is row `5000 t + p` of the factor column. -/
theorem factor_block1 (c : Dev nD) (t : Fin cfg1.N) (p : Fin 5000) (r : Fin 100000) (hr : r.val = 5000 * t.val + p.val) :
    (iblk1 V c 1 t : Vec Ideal S5000x1 .f32) (ix2 p (0 : Fin 1)) = (V c (Pipeline.arrRef spec1 1) : S100000x1.Idx → EReal) (ix2 r (0 : Fin 1)) := by
  obtain ⟨-, -, e10, e11, -⟩ := block_index1 t
  show V c (Pipeline.arrRef spec1 1) (((cfg1.win 1).blk t).view.emb (ix2 p (0 : Fin 1))) = V c (Pipeline.arrRef spec1 1) (ix2 r (0 : Fin 1))
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias row's block at every point is the whole bias row. -/
theorem bias_block1 (c : Dev nD) (t : Fin cfg1.N) (k : Fin 128) :
    (iblk1 V c 2 t : Vec Ideal S1x128 .f32) (ix2 (0 : Fin 1) k) = (V c (Pipeline.arrRef spec1 2) : S1x128.Idx → EReal) (ix2 (0 : Fin 1) k) := by
  obtain ⟨-, -, -, -, e20, e21, -⟩ := block_index1 t
  show V c (Pipeline.arrRef spec1 2) (((cfg1.win 2).blk t).view.emb (ix2 (0 : Fin 1) k)) = V c (Pipeline.arrRef spec1 2) (ix2 (0 : Fin 1) k)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The weights' block at every point is the whole weight matrix. -/
theorem weight_block1 (c : Dev nD) (t : Fin cfg1.N) (k q : Fin 128) :
    (iblk1 V c 3 t : Vec Ideal S128x128 .f32) (ix2 k q) = (V c (Pipeline.arrRef spec1 3) : S128x128.Idx → EReal) (ix2 k q) := by
  obtain ⟨-, -, -, -, -, -, e30, e31, -⟩ := block_index1 t
  show V c (Pipeline.arrRef spec1 3) (((cfg1.win 3).blk t).view.emb (ix2 k q)) = V c (Pipeline.arrRef spec1 3) (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The body's result on blocks that are rows `5000 T …` of the arrays is those rows of the layer transition. -/
theorem block_transition1 (x0 : Vec Ideal S5000x128 .f32) (x1 : Vec Ideal S5000x1 .f32) (x2 : Vec Ideal S1x128 .f32) (x3 : Vec Ideal S128x128 .f32)
    (a : Mat 100000 128) (d : Mat 100000 1) (b : Mat 1 128) (w : Mat 128 128) (T : ℕ)
    (h0 : ∀ (p : Fin 5000) (k : Fin 128) (r : Fin 100000), r.val = 5000 * T + p.val → x0 (ix2 p k) = a (ix2 r k))
    (h1 : ∀ (p : Fin 5000) (r : Fin 100000), r.val = 5000 * T + p.val → x1 (ix2 p (0 : Fin 1)) = d (ix2 r (0 : Fin 1)))
    (h2 : ∀ (k : Fin 128), x2 (ix2 (0 : Fin 1) k) = b (ix2 (0 : Fin 1) k))
    (h3 : ∀ (k q : Fin 128), x3 (ix2 k q) = w (ix2 k q))
    (y : S5000x128.Idx) (i : S100000x128.Idx) (hi0 : (i 0).val = 5000 * T + (y 0).val) (hi1 : (i 1).val = (y 1).val) :
    k1_pay1 (F := Ideal) x0 x1 x2 x3 x1 y = transition a d b w i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = 5000 * T + p.val := hi0
  obtain rfl : s = q := Fin.ext hi1
  rw [pay1_apply]
  show _ = (∑ k : Fin 128, max (a (ix2 r k) * d (ix2 r (0 : Fin 1)) + b (ix2 (0 : Fin 1) k)) 0 * w (ix2 k s)) * d (ix2 r (0 : Fin 1))
  rw [h1 p r hr]
  exact congrArg (· * _) (Finset.sum_congr rfl fun k _ => by rw [h0 p k r hr, h2 k, h3 k s])

/-- What point `t` writes back is block `t` of the layer transition of the arrays the region finds. -/
theorem flushed1_eq (c : Dev nD) (t : Fin cfg1.N) :
    (dat1 (F := Ideal) V c).flushed 4 t = ((cfg1.win 4).blk t).view.read (Elt Ideal)
      (transition (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets, View.ld_unit_zero (S := S1x128) zero_offsets, View.ld_unit_zero (S := S128x128) zero_offsets]
  obtain ⟨-, -, -, -, -, -, -, -, e40, e41⟩ := block_index1 t
  funext j
  refine block_transition1 (iblk1 V c 0 t) (iblk1 V c 1 t) (iblk1 V c 2 t) (iblk1 V c 3 t) _ _ _ _ t.val
    (fun p k r hr => rows_block1 V c t p k r hr) (fun p r hr => factor_block1 V c t p r hr) (fun k => bias_block1 V c t k) (fun k q => weight_block1 V c t k q)
    j (((cfg1.win 4).blk t).view.emb j) ?_ ?_
  · show win1_4.index t (0 : Fin 2) * 5000 + 1 * (j 0).val = 5000 * t.val + (j 0).val; omega
  · show win1_4.index t (1 : Fin 2) * 128 + 1 * (j 1).val = (j 1).val; omega

/-- An index of the output array is in point `t`'s block iff each coordinate is in the block's range on its axis. -/
theorem mem_block1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

/-- Every row is in some point's block: row `n` in that of point `n / 5000`. -/
theorem covered1 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : grid1.N = 20 := N_1
  obtain ⟨t, ht⟩ : ∃ t : Fin cfg1.N, t.val = (i 0).val / 5000 := ⟨⟨(i 0).val / 5000, by show _ < grid1.N; omega⟩, rfl⟩
  obtain ⟨-, -, -, -, -, -, -, -, e40, e41⟩ := block_index1 t
  refine ⟨t, flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array region 1 leaves: the layer transition of the arrays it finds. -/
theorem array1 (c : Dev nD) :
    ((Gen.dat1 (F := Ideal) V c).arrAt 4 cfg1.N) = transition (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) covered1

end Cert.KernelIdeal.RegionArrays
end
-- ==== Proof.Region2.lean ====
/-
  The array the second fused layer transition leaves.  The grid has 20 points; point `t` reads
  rows `5000 t … 5000 t + 4999` of the aggregated features and of the per-node factor column,
  reads the whole bias row and the whole 128 × 128 weight matrix, and writes rows
  `5000 t … 5000 t + 4999` of the output.  Entry `(p, q)` of what it writes is
  `(∑ k, max (a (5000 t + p, k) · d (5000 t + p) + b k) 0 · w (k, q)) · d (5000 t + p)`: the factor
  column is broadcast along the row, the bias row down the column, the clamp is against the zero
  word, and the product into a zero accumulator is the plain sum over the 128 hidden features.  The
  20 row blocks tile the 100000 rows, so the output array ends holding the layer transition of the
  arrays the region finds, index by index.
-/
import proofs.«119056_j34703335751945_2_alg».proof.Proof.Gen.KernelIdeal.Frame
import proofs.«119056_j34703335751945_2_alg».proof.Proof.GcnSpec
import proofs.«119056_j34703335751945_2_alg».proof.Proof.Region0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionArrays

open Cert.KernelIdeal Cert.KernelIdeal.Gen Idealize.ShloMosaic Idealize.ShloMosaic.TcCoe Idealize.SL.Sem
open Idealize.ShloMosaic.ValueIdx
open Idealize.ShloMosaic.Pipeline (Dat)
open Cert.GcnSpec

/-- The product's left operand is read in the output's row, -/
theorem dot2_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- at the contracted feature; -/
theorem dot2_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted feature, -/
theorem dot2_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- in the output's column. -/
theorem dot2_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product read at `(p, q)`: the sum over the 128 hidden features. -/
theorem matmul_block2_apply (y0 : FVec Ideal S5000x128 .bf16) (y1 : FVec Ideal S128x128 .bf16) (p : Fin 5000) (q : Fin 128) :
    matmul dot_S5000x128_S128x128_S5000x128_1_0_0_1_n_n none y0 y1 (constant (F := Ideal) S5000x128 .f32 0x00000000#32) (ix2 p q)
      = ∑ k : Fin 128, y0 (ix2 p k) * y1 (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dot2_lhs_row _ _
    | ⟨1, _⟩ => exact (dot2_lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot2_rhs_row _ _).trans hk
    | ⟨1, _⟩ => exact dot2_rhs_col _ _)
  rw [el, er]

/-- The body's result at `(p, q)` of a block: the clamped, biased, scaled row times the weights' column, scaled again. -/
theorem pay2_apply (x0 : Vec Ideal S5000x128 .f32) (x1 : Vec Ideal S5000x1 .f32) (x2 : Vec Ideal S1x128 .f32) (x3 : Vec Ideal S128x128 .f32) (x4 : Vec Ideal S5000x1 .f32)
    (p : Fin 5000) (q : Fin 128) :
    k2_pay1 (F := Ideal) x0 x1 x2 x3 x4 (ix2 p q)
      = (∑ k : Fin 128, max (x0 (ix2 p k) * x1 (ix2 p (0 : Fin 1)) + x2 (ix2 (0 : Fin 1) k)) 0 * x3 (ix2 k q)) * x4 (ix2 p (0 : Fin 1)) := by
  unfold k2_pay1
  simp only [shapeCast_self]
  rw [mulf_apply, matmul_block2_apply, broadcastTo_a1_ab_apply]
  refine congrArg (· * _) (Finset.sum_congr rfl fun k _ => ?_)
  rw [truncf_apply, truncf_apply, maximumf_apply, addf_apply, mulf_apply, broadcast_apply, broadcastTo_a1_ab_apply, broadcastTo_1b_ab_apply]
  show max _ (Ideal.ofBits .f32 0x00000000#32) * _ = _
  rw [Ideal.ofBits_zero_f32]

variable (V : (c : Dev nD) → (b : Ref sig .tc) → Buf (Elt Ideal) ((c : Thread nD τ).loc b))

/-- Where each window's block sits at grid point `t`: the row-blocked operands at block row `t`, the bias row and the weights whole. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the aggregated rows' block at point `t` is row `5000 t + p` of the array. -/
theorem rows_block2 (c : Dev nD) (t : Fin cfg2.N) (p : Fin 5000) (k : Fin 128) (r : Fin 100000) (hr : r.val = 5000 * t.val + p.val) :
    (iblk2 V c 0 t : Vec Ideal S5000x128 .f32) (ix2 p k) = (V c (Pipeline.arrRef spec2 0) : S100000x128.Idx → EReal) (ix2 r k) := by
  obtain ⟨e00, e01, -⟩ := block_index2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row `p` of the factor column's block at point `t` is row `5000 t + p` of the factor column. -/
theorem factor_block2 (c : Dev nD) (t : Fin cfg2.N) (p : Fin 5000) (r : Fin 100000) (hr : r.val = 5000 * t.val + p.val) :
    (iblk2 V c 1 t : Vec Ideal S5000x1 .f32) (ix2 p (0 : Fin 1)) = (V c (Pipeline.arrRef spec2 1) : S100000x1.Idx → EReal) (ix2 r (0 : Fin 1)) := by
  obtain ⟨-, -, e10, e11, -⟩ := block_index2 t
  show V c (Pipeline.arrRef spec2 1) (((cfg2.win 1).blk t).view.emb (ix2 p (0 : Fin 1))) = V c (Pipeline.arrRef spec2 1) (ix2 r (0 : Fin 1))
  refine congrArg _ (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The bias row's block at every point is the whole bias row. -/
theorem bias_block2 (c : Dev nD) (t : Fin cfg2.N) (k : Fin 128) :
    (iblk2 V c 2 t : Vec Ideal S1x128 .f32) (ix2 (0 : Fin 1) k) = (V c (Pipeline.arrRef spec2 2) : S1x128.Idx → EReal) (ix2 (0 : Fin 1) k) := by
  obtain ⟨-, -, -, -, e20, e21, -⟩ := block_index2 t
  show V c (Pipeline.arrRef spec2 2) (((cfg2.win 2).blk t).view.emb (ix2 (0 : Fin 1) k)) = V c (Pipeline.arrRef spec2 2) (ix2 (0 : Fin 1) k)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The weights' block at every point is the whole weight matrix. -/
theorem weight_block2 (c : Dev nD) (t : Fin cfg2.N) (k q : Fin 128) :
    (iblk2 V c 3 t : Vec Ideal S128x128 .f32) (ix2 k q) = (V c (Pipeline.arrRef spec2 3) : S128x128.Idx → EReal) (ix2 k q) := by
  obtain ⟨-, -, -, -, -, -, e30, e31, -⟩ := block_index2 t
  show V c (Pipeline.arrRef spec2 3) (((cfg2.win 3).blk t).view.emb (ix2 k q)) = V c (Pipeline.arrRef spec2 3) (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The body's result on blocks that are rows `5000 T …` of the arrays is those rows of the layer transition. -/
theorem block_transition2 (x0 : Vec Ideal S5000x128 .f32) (x1 : Vec Ideal S5000x1 .f32) (x2 : Vec Ideal S1x128 .f32) (x3 : Vec Ideal S128x128 .f32)
    (a : Mat 100000 128) (d : Mat 100000 1) (b : Mat 1 128) (w : Mat 128 128) (T : ℕ)
    (h0 : ∀ (p : Fin 5000) (k : Fin 128) (r : Fin 100000), r.val = 5000 * T + p.val → x0 (ix2 p k) = a (ix2 r k))
    (h1 : ∀ (p : Fin 5000) (r : Fin 100000), r.val = 5000 * T + p.val → x1 (ix2 p (0 : Fin 1)) = d (ix2 r (0 : Fin 1)))
    (h2 : ∀ (k : Fin 128), x2 (ix2 (0 : Fin 1) k) = b (ix2 (0 : Fin 1) k))
    (h3 : ∀ (k q : Fin 128), x3 (ix2 k q) = w (ix2 k q))
    (y : S5000x128.Idx) (i : S100000x128.Idx) (hi0 : (i 0).val = 5000 * T + (y 0).val) (hi1 : (i 1).val = (y 1).val) :
    k2_pay1 (F := Ideal) x0 x1 x2 x3 x1 y = transition a d b w i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = 5000 * T + p.val := hi0
  obtain rfl : s = q := Fin.ext hi1
  rw [pay2_apply]
  show _ = (∑ k : Fin 128, max (a (ix2 r k) * d (ix2 r (0 : Fin 1)) + b (ix2 (0 : Fin 1) k)) 0 * w (ix2 k s)) * d (ix2 r (0 : Fin 1))
  rw [h1 p r hr]
  exact congrArg (· * _) (Finset.sum_congr rfl fun k _ => by rw [h0 p k r hr, h2 k, h3 k s])

/-- What point `t` writes back is block `t` of the layer transition of the arrays the region finds. -/
theorem flushed2_eq (c : Dev nD) (t : Fin cfg2.N) :
    (dat2 (F := Ideal) V c).flushed 4 t = ((cfg2.win 4).blk t).view.read (Elt Ideal)
      (transition (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S5000x1) zero_offsets, View.ld_unit_zero (S := S1x128) zero_offsets, View.ld_unit_zero (S := S128x128) zero_offsets]
  obtain ⟨-, -, -, -, -, -, -, -, e40, e41⟩ := block_index2 t
  funext j
  refine block_transition2 (iblk2 V c 0 t) (iblk2 V c 1 t) (iblk2 V c 2 t) (iblk2 V c 3 t) _ _ _ _ t.val
    (fun p k r hr => rows_block2 V c t p k r hr) (fun p r hr => factor_block2 V c t p r hr) (fun k => bias_block2 V c t k) (fun k q => weight_block2 V c t k q)
    j (((cfg2.win 4).blk t).view.emb j) ?_ ?_
  · show win2_4.index t (0 : Fin 2) * 5000 + 1 * (j 0).val = 5000 * t.val + (j 0).val; omega
  · show win2_4.index t (1 : Fin 2) * 128 + 1 * (j 1).val = (j 1).val; omega

/-- An index of the output array is in point `t`'s block iff each coordinate is in the block's range on its axis. -/
theorem mem_block2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v43).slice (win2_4.rect t)).set ↔ _
  rw [View.set_slice_whole, Rect.mem_set_unit]
  exact Iff.rfl

/-- Every row is in some point's block: row `n` in that of point `n / 5000`. -/
theorem covered2 (i : S100000x128.Idx) :
    ∃ t : Fin cfg2.N, (cfg2.win 4).flush t = true ∧ i ∈ ((cfg2.win 4).blk t).view.set := by
  have hi0 : (i 0).val < 100000 := idx2_lt0 i
  have hi1 : (i 1).val < 128 := idx2_lt1 i
  have hN : grid2.N = 20 := N_2
  obtain ⟨t, ht⟩ : ∃ t : Fin cfg2.N, t.val = (i 0).val / 5000 := ⟨⟨(i 0).val / 5000, by show _ < grid2.N; omega⟩, rfl⟩
  obtain ⟨-, -, -, -, -, -, -, -, e40, e41⟩ := block_index2 t
  refine ⟨t, flush2_4 t, ?_⟩
  rw [mem_block2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The array region 2 leaves: the layer transition of the arrays it finds. -/
theorem array2 (c : Dev nD) :
    ((Gen.dat2 (F := Ideal) V c).arrAt 4 cfg2.N) = transition (V c (Pipeline.arrRef spec2 0)) (V c (Pipeline.arrRef spec2 1)) (V c (Pipeline.arrRef spec2 2)) (V c (Pipeline.arrRef spec2 3)) :=
  (dat2 V c).arrAt_eq_of_cover 4 _ (fun t _ => flushed2_eq V c t) covered2

end Cert.KernelIdeal.RegionArrays
end
-- ==== Proof.Region3.lean ====
/-
  The array the last layer's activation leaves.  The grid has 20 points; point `t` reads rows
  `5000 t … 5000 t + 4999` of the aggregated features and of the per-node factor column, reads the
  whole bias row, and writes rows `5000 t … 5000 t + 4999` of the output.  Entry `(p, q)` of what it
  writes is `max (a (5000 t + p, q) · d (5000 t + p) + b q) 0`: the factor column is broadcast along
  the row, the bias row down the column, and the clamp is against the zero word.  The 20 row blocks
  tile the 100000 rows, so the output array ends holding the activation of the arrays the region
  finds, index by index.
-/
import proofs.«119056_j34703335751945_2_alg».proof.Proof.Gen.KernelIdeal.Frame
import proofs.«119056_j34703335751945_2_alg».proof.Proof.GcnSpec
import proofs.«119056_j34703335751945_2_alg».proof.Proof.Region0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionArrays

open Cert.KernelIdeal Cert.KernelIdeal.Gen Idealize.ShloMosaic Idealize.ShloMosaic.TcCoe Idealize.SL.Sem
open Idealize.ShloMosaic.ValueIdx
open Idealize.ShloMosaic.Pipeline (Dat)
open Cert.GcnSpec

/-- The body's result at `(p, q)` of a block: the scaled entry plus the bias, clamped at zero. -/
theorem pay3_apply (x0 : Vec Ideal S5000x128 .f32) (x1 : Vec Ideal S5000x1 .f32) (x2 : Vec Ideal S1x128 .f32) (p : Fin 5000) (q : Fin 128) :
    k3_pay1 (F := Ideal) x0 x1 x2 (ix2 p q) = max (x0 (ix2 p q) * x1 (ix2 p (0 : Fin 1)) + x2 (ix2 (0 : Fin 1) q)) 0 := by
  unfold k3_pay1
  simp only [shapeCast_self]
  rw [maximumf_apply, addf_apply, mulf_apply, broadcast_apply, broadcastTo_a1_ab_apply, broadcastTo_1b_ab_apply]
  show max _ (Ideal.ofBits .f32 0x00000000#32) = _
  rw [Ideal.ofBits_zero_f32]

variable (V : (c : Dev nD) → (b : Ref sig .tc) → Buf (Elt Ideal) ((c : Thread nD τ).loc b))

/-- Where each window's block sits at grid point `t`: the row-blocked operands at block row `t`, the bias row whole. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the aggregated rows' block at point `t` is row `5000 t + p` of the array. -/
theorem rows_block3 (c : Dev nD) (t : Fin cfg3.N) (p : Fin 5000) (k : Fin 128) (r : Fin 100000) (hr : r.val = 5000 * t.val + p.val) :
    (iblk3 V c 0 t : Vec Ideal S5000x128 .f32) (ix2 p k) = (V c (Pipeline.arrRef spec3 0) : S100000x128.Idx → EReal) (ix2 r k) := by
  obtain ⟨e00, e01, -⟩ := block_index3 t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Row `p` of the factor column's block at point `t` is row `5000 t + p` of the factor column. -/
theorem factor_block3 (c : Dev nD) (t : Fin cfg3.N) (p : Fin 5000) (r : Fin 100000) (hr : r.val = 5000 * t.val + p.val) :
    (iblk3 V c 1 t : Vec Ideal S5000x1 .f32) (ix2 p (0 : Fin 1)) = (V c (Pipeline.arrRef spec3 1) : S100000x1.Idx → EReal) (ix2 r (0 : Fin 1)) := by
  obtain ⟨-, -, e10, e11, -⟩ := block_index3 t
  show V c (Pipeline.arrRef spec3 1) (((cfg3.win 1).blk t).view.emb (ix2 p (0 : Fin 1))) = V c (Pipeline.arrRef spec3 1) (ix2 r (0 : Fin 1))
  refine congrArg _ (funext fun a => Fin.ext ?_)
  match a with
  | ⟨0, _⟩ => show win3_1.index t (0 : Fin 2) * 5000 + 1 * p.val = r.val; omega
  | ⟨1, _⟩ => show win3_1.index t (1 : Fin 2) * 1 + 1 * 0 = 0; omega

/-- The bias row's block at every point is the whole bias row. -/
theorem bias_block3 (c : Dev nD) (t : Fin cfg3.N) (k : Fin 128) :
    (iblk3 V c 2 t : Vec Ideal S1x128 .f32) (ix2 (0 : Fin 1) k) = (V c (Pipeline.arrRef spec3 2) : S1x128.Idx → EReal) (ix2 (0 : Fin 1) k) := by
  obtain ⟨-, -, -, -, e20, e21, -⟩ := block_index3 t
  show V c (Pipeline.arrRef spec3 2) (((cfg3.win 2).blk t).view.emb (ix2 (0 : Fin 1) k)) = V c (Pipeline.arrRef spec3 2) (ix2 (0 : Fin 1) k)
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * k.val = k.val; omega

/-- The body's result on blocks that are rows `5000 T …` of the arrays is those rows of the activation. -/
theorem block_activation3 (x0 : Vec Ideal S5000x128 .f32) (x1 : Vec Ideal S5000x1 .f32) (x2 : Vec Ideal S1x128 .f32)
    (a : Mat 100000 128) (d : Mat 100000 1) (b : Mat 1 128) (T : ℕ)
    (h0 : ∀ (p : Fin 5000) (k : Fin 128) (r : Fin 100000), r.val = 5000 * T + p.val → x0 (ix2 p k) = a (ix2 r k))
    (h1 : ∀ (p : Fin 5000) (r : Fin 100000), r.val = 5000 * T + p.val → x1 (ix2 p (0 : Fin 1)) = d (ix2 r (0 : Fin 1)))
    (h2 : ∀ (k : Fin 128), x2 (ix2 (0 : Fin 1) k) = b (ix2 (0 : Fin 1) k))
    (y : S5000x128.Idx) (i : S100000x128.Idx) (hi0 : (i 0).val = 5000 * T + (y 0).val) (hi1 : (i 1).val = (y 1).val) :
    k3_pay1 (F := Ideal) x0 x1 x2 y = activation a d b i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hr : r.val = 5000 * T + p.val := hi0
  obtain rfl : s = q := Fin.ext hi1
  rw [pay3_apply]
  show _ = max (a (ix2 r s) * d (ix2 r (0 : Fin 1)) + b (ix2 (0 : Fin 1) s)) 0
  rw [h0 p s r hr, h1 p r hr, h2 s]

/-- What point `t` writes back is block `t` of the activation of the arrays the region finds. -/
theorem flushed3_eq (c : Dev nD) (t : Fin cfg3.N) :
    (dat3 (F := Ideal) V c).flushed 3 t = ((cfg3.win 3).blk t).view.read (Elt Ideal)
      (activation (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S5000x1) zero_offsets, View.ld_unit_zero (S := S1x128) zero_offsets]
  obtain ⟨-, -, -, -, -, -, e30, e31⟩ := block_index3 t
  funext j
  refine block_activation3 (iblk3 V c 0 t) (iblk3 V c 1 t) (iblk3 V c 2 t) _ _ _ t.val
    (fun p k r hr => rows_block3 V c t p k r hr) (fun p r hr => factor_block3 V c t p r hr) (fun k => bias_block3 V c t k)
    j (((cfg3.win 3).blk t).view.emb j) ?_ ?_
  · show win3_3.index t (0 : Fin 2) * 5000 + 1 * (j 0).val = 5000 * t.val + (j 0).val; omega
  · show win3_3.index t (1 : Fin 2) * 128 + 1 * (j 1).val = (j 1).val; omega

/-- An index of the output array is in point `t`'s block iff each coordinate is in the block's range on its axis. -/
theorem mem_block3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v55).slice (win3_3.rect t)).set ↔ _
  rw [View.set_slice_whole, Rect.mem_set_unit]
  exact Iff.rfl

/-- Every row is in some point's block: row `n` in that of point `n / 5000`. -/
theorem covered3 (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  have hN : grid3.N = 20 := N_3
  obtain ⟨t, ht⟩ : ∃ t : Fin cfg3.N, t.val = (i 0).val / 5000 := ⟨⟨(i 0).val / 5000, by show _ < grid3.N; omega⟩, rfl⟩
  obtain ⟨-, -, -, -, -, -, e30, e31⟩ := block_index3 t
  refine ⟨t, flush3_3 t, ?_⟩
  rw [mem_block3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The array region 3 leaves: the activation of the arrays it finds. -/
theorem array3 (c : Dev nD) :
    ((Gen.dat3 (F := Ideal) V c).arrAt 3 cfg3.N) = activation (V c (Pipeline.arrRef spec3 0)) (V c (Pipeline.arrRef spec3 1)) (V c (Pipeline.arrRef spec3 2)) :=
  (dat3 V c).arrAt_eq_of_cover 3 _ (fun t _ => flushed3_eq V c t) covered3

end Cert.KernelIdeal.RegionArrays
end
-- ==== Proof.ChainStretches.lean ====
/-
  The idealized kernel program's buffers through its three graph-convolution layers, each as the reference's
  own stage of the arguments.  Region 0 leaves the rows of `x · W0` scaled by the node factors; each host stretch
  gathers the scaled rows along the edges and adds them into their target rows; regions 1 and 2 scale the sum by
  the target's factor, add the bias, clamp at zero and multiply by the next weights (scaled again); region 3
  stops at the clamp.  By the aggregation law each activation is the reference's, so the array each region
  leaves is the reference's matrix product scaled by the node factors, and the last one the reference's third
  activation.
-/
import proofs.«119056_j34703335751945_2_alg».proof.Proof.Gen.KernelIdeal.Frame
import proofs.«119056_j34703335751945_2_alg».proof.Proof.RefReadP
import proofs.«119056_j34703335751945_2_alg».proof.Proof.ChainEntry
import proofs.«119056_j34703335751945_2_alg».proof.Proof.Region0
import proofs.«119056_j34703335751945_2_alg».proof.Proof.Region1
import proofs.«119056_j34703335751945_2_alg».proof.Proof.Region2
import proofs.«119056_j34703335751945_2_alg».proof.Proof.Region3
import proofs.«119056_j34703335751945_2_alg».proof.Proof.GcnSpec
import Idealize.ShloMosaic.Lib.StableHlo.Run
import Idealize.ShloMosaic.Lib.ValueLayout
import Idealize.ShloMosaic.Lib.Pipeline.Value

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Idealize.ShloMosaic.ValueIdx Cert.GcnSpec

/-- A length-`a` vector reshaped to a column read at row `i` is its entry `i`. -/
theorem shapeCast_column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The factor column at row `n` is node `n`'s factor. -/
theorem column_apply (n : Fin 100000) :
    factorColumn m c (ix2 n (0 : Fin 1)) = Cert.ReferenceIdeal.ReadP.val_main_v17 (F := Ideal) (m ((c.tc : Thread nD τ).loc main_arg10)) (ix1 n) :=
  shapeCast_column_apply _ _ n 0

/-- A bias vector as a row. -/
def biasRow (x : S128.Idx → EReal) : S1x128.Idx → EReal := shapeCast S1x128 x shapeCasts_S128_S1x128

theorem biasRow_apply (x : S128.Idx → EReal) (j : Fin 128) : biasRow x (ix2 (0 : Fin 1) j) = x (ix1 j) :=
  shapeCast_a_1a_apply x _ 0 j

theorem keep_v5_1_6 : W6 (F := Ideal) m ρ c (Proc.devRef .tc main_v5) = W1 (F := Ideal) m ρ c (Proc.devRef .tc main_v5) :=
  calc W6 (F := Ideal) m ρ c (Proc.devRef .tc main_v5)
    _ = W5 (F := Ideal) m ρ c (Proc.devRef .tc main_v5) := W6_of_ne m ρ c main_v5 (by decide)
    _ = W4 (F := Ideal) m ρ c (Proc.devRef .tc main_v5) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_v5) := W4_of_ne m ρ c main_v5 (by decide)
    _ = W2 (F := Ideal) m ρ c (Proc.devRef .tc main_v5) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_v5) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_v8_1_6 : W6 (F := Ideal) m ρ c (Proc.devRef .tc main_v8) = W1 (F := Ideal) m ρ c (Proc.devRef .tc main_v8) :=
  calc W6 (F := Ideal) m ρ c (Proc.devRef .tc main_v8)
    _ = W5 (F := Ideal) m ρ c (Proc.devRef .tc main_v8) := W6_of_ne m ρ c main_v8 (by decide)
    _ = W4 (F := Ideal) m ρ c (Proc.devRef .tc main_v8) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_v8) := W4_of_ne m ρ c main_v8 (by decide)
    _ = W2 (F := Ideal) m ρ c (Proc.devRef .tc main_v8) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_v8) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_v5_1_8 : W8 (F := Ideal) m ρ c (Proc.devRef .tc main_v5) = W1 (F := Ideal) m ρ c (Proc.devRef .tc main_v5) :=
  calc W8 (F := Ideal) m ρ c (Proc.devRef .tc main_v5)
    _ = W7 (F := Ideal) m ρ c (Proc.devRef .tc main_v5) := W8_of_ne m ρ c main_v5 (by decide)
    _ = W6 (F := Ideal) m ρ c (Proc.devRef .tc main_v5) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_v5) := W6_of_ne m ρ c main_v5 (by decide)
    _ = W4 (F := Ideal) m ρ c (Proc.devRef .tc main_v5) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_v5) := W4_of_ne m ρ c main_v5 (by decide)
    _ = W2 (F := Ideal) m ρ c (Proc.devRef .tc main_v5) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_v5) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_v8_1_8 : W8 (F := Ideal) m ρ c (Proc.devRef .tc main_v8) = W1 (F := Ideal) m ρ c (Proc.devRef .tc main_v8) :=
  calc W8 (F := Ideal) m ρ c (Proc.devRef .tc main_v8)
    _ = W7 (F := Ideal) m ρ c (Proc.devRef .tc main_v8) := W8_of_ne m ρ c main_v8 (by decide)
    _ = W6 (F := Ideal) m ρ c (Proc.devRef .tc main_v8) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_v8) := W6_of_ne m ρ c main_v8 (by decide)
    _ = W4 (F := Ideal) m ρ c (Proc.devRef .tc main_v8) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_v8) := W4_of_ne m ρ c main_v8 (by decide)
    _ = W2 (F := Ideal) m ρ c (Proc.devRef .tc main_v8) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_v8) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_arg5_0_6 : W6 (F := Ideal) m ρ c (Proc.devRef .tc main_arg5) = W0 (F := Ideal) m ρ c (Proc.devRef .tc main_arg5) :=
  calc W6 (F := Ideal) m ρ c (Proc.devRef .tc main_arg5)
    _ = W5 (F := Ideal) m ρ c (Proc.devRef .tc main_arg5) := W6_of_ne m ρ c main_arg5 (by decide)
    _ = W4 (F := Ideal) m ρ c (Proc.devRef .tc main_arg5) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_arg5) := W4_of_ne m ρ c main_arg5 (by decide)
    _ = W2 (F := Ideal) m ρ c (Proc.devRef .tc main_arg5) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg5) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg5) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_arg7_0_8 : W8 (F := Ideal) m ρ c (Proc.devRef .tc main_arg7) = W0 (F := Ideal) m ρ c (Proc.devRef .tc main_arg7) :=
  calc W8 (F := Ideal) m ρ c (Proc.devRef .tc main_arg7)
    _ = W7 (F := Ideal) m ρ c (Proc.devRef .tc main_arg7) := W8_of_ne m ρ c main_arg7 (by decide)
    _ = W6 (F := Ideal) m ρ c (Proc.devRef .tc main_arg7) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_arg7) := W6_of_ne m ρ c main_arg7 (by decide)
    _ = W4 (F := Ideal) m ρ c (Proc.devRef .tc main_arg7) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_arg7) := W4_of_ne m ρ c main_arg7 (by decide)
    _ = W2 (F := Ideal) m ρ c (Proc.devRef .tc main_arg7) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg7) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg7) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_v18_3_7 : W7 (F := Ideal) m ρ c (Proc.devRef .tc main_v18) = W3 (F := Ideal) m ρ c (Proc.devRef .tc main_v18) :=
  calc W7 (F := Ideal) m ρ c (Proc.devRef .tc main_v18)
    _ = W6 (F := Ideal) m ρ c (Proc.devRef .tc main_v18) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_v18) := (W6_arr m ρ c 1).trans (((dat1 (V5 m ρ) c).arrAt_in 1 rfl _).trans (A_eq1 (V5 m ρ) c 1))
    _ = W4 (F := Ideal) m ρ c (Proc.devRef .tc main_v18) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_v18) := (W4_arr m ρ c 2).trans (((dat0 (V3 m ρ) c).arrAt_in 2 rfl _).trans (A_eq0 (V3 m ρ) c 2))

theorem keep_v18_3_9 : W9 (F := Ideal) m ρ c (Proc.devRef .tc main_v18) = W3 (F := Ideal) m ρ c (Proc.devRef .tc main_v18) :=
  calc W9 (F := Ideal) m ρ c (Proc.devRef .tc main_v18)
    _ = W8 (F := Ideal) m ρ c (Proc.devRef .tc main_v18) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W7 (F := Ideal) m ρ c (Proc.devRef .tc main_v18) := (W8_arr m ρ c 1).trans (((dat2 (V7 m ρ) c).arrAt_in 1 rfl _).trans (A_eq2 (V7 m ρ) c 1))
    _ = W6 (F := Ideal) m ρ c (Proc.devRef .tc main_v18) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_v18) := (W6_arr m ρ c 1).trans (((dat1 (V5 m ρ) c).arrAt_in 1 rfl _).trans (A_eq1 (V5 m ρ) c 1))
    _ = W4 (F := Ideal) m ρ c (Proc.devRef .tc main_v18) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_v18) := (W4_arr m ρ c 2).trans (((dat0 (V3 m ρ) c).arrAt_in 2 rfl _).trans (A_eq0 (V3 m ρ) c 2))

theorem keep_arg6_0_7 : W7 (F := Ideal) m ρ c (Proc.devRef .tc main_arg6) = W0 (F := Ideal) m ρ c (Proc.devRef .tc main_arg6) :=
  calc W7 (F := Ideal) m ρ c (Proc.devRef .tc main_arg6)
    _ = W6 (F := Ideal) m ρ c (Proc.devRef .tc main_arg6) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_arg6) := W6_of_ne m ρ c main_arg6 (by decide)
    _ = W4 (F := Ideal) m ρ c (Proc.devRef .tc main_arg6) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_arg6) := W4_of_ne m ρ c main_arg6 (by decide)
    _ = W2 (F := Ideal) m ρ c (Proc.devRef .tc main_arg6) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg6) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg6) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-- Region 0 leaves the rows of `x · W0` scaled by the node factors. -/
theorem product0 : W4 (F := Ideal) m ρ c (Proc.devRef .tc main_v19)
    = scaledProduct (Cert.ReferenceIdeal.ReadP.val_main_v1 (F := Ideal) (m ((c.tc : Thread nD τ).loc main_arg0)) (m ((c.tc : Thread nD τ).loc main_arg1))) (m ((c.tc : Thread nD τ).loc main_arg2)) (factorColumn m c) := by
  refine (W4_arr m ρ c 3).trans ((Cert.KernelIdeal.RegionArrays.array0 (V3 m ρ) c).trans ?_)
  show scaledProduct (W3 (F := Ideal) m ρ c (Proc.devRef .tc main_v1)) (W3 (F := Ideal) m ρ c (Proc.devRef .tc main_arg2))
      (W3 (F := Ideal) m ρ c (Proc.devRef .tc main_v18)) = _
  rw [keep_v1_1_3, pre_main_v1, keep_arg2_0_3, column]

set_option maxHeartbeats 1000000 in
/-- The stretch after region 0: the rows region 0 left, gathered along the edges and added into their target rows. -/
theorem aggregate0 : W5 (F := Ideal) m ρ c (Proc.devRef .tc main_v29)
    = Host.scatterAdd (F := Ideal) (φ := .f32) Cert.ReferenceIdeal.scatter_S100000x128_S1700000x1_S1700000x128_1_0_0_1 (Cert.ReferenceIdeal.ReadP.val_main_v44 (F := Ideal)) (Cert.ReferenceIdeal.ReadP.val_main_v45 (F := Ideal) (m ((c.tc : Thread nD τ).loc main_arg10)))
        (Host.gather Cert.ReferenceIdeal.gather_S100000x128_S1700000x1_S1700000x128_1_0_n_n_0_1_1128 (W4 (F := Ideal) m ρ c (Proc.devRef .tc main_v19)) (Cert.ReferenceIdeal.ReadP.val_main_v39 (F := Ideal) (m ((c.tc : Thread nD τ).loc main_arg10)))) := by
  dsimp only [W5]
  generalize hV : W4 (F := Ideal) m ρ c = V'
  after_results_simp
  subst hV
  rw [keep_v8_1_4, pre_main_v8, keep_v5_1_4, pre_main_v5]
  rfl

set_option maxHeartbeats 1000000 in
/-- The same stretch reshapes the layer's bias to a row. -/
theorem bias0 : W5 (F := Ideal) m ρ c (Proc.devRef .tc main_v30)
    = biasRow (m ((c.tc : Thread nD τ).loc main_arg3)) := by
  dsimp only [W5]
  generalize hV : W4 (F := Ideal) m ρ c = V'
  after_results_simp
  subst hV
  rw [keep_arg3_0_4]
  rfl

set_option maxHeartbeats 1000000 in
/-- The stretch after region 1: the rows region 1 left, gathered along the edges and added into their target rows. -/
theorem aggregate1 : W7 (F := Ideal) m ρ c (Proc.devRef .tc main_v41)
    = Host.scatterAdd (F := Ideal) (φ := .f32) Cert.ReferenceIdeal.scatter_S100000x128_S1700000x1_S1700000x128_1_0_0_1 (Cert.ReferenceIdeal.ReadP.val_main_v62 (F := Ideal)) (Cert.ReferenceIdeal.ReadP.val_main_v63 (F := Ideal) (m ((c.tc : Thread nD τ).loc main_arg10)))
        (Host.gather Cert.ReferenceIdeal.gather_S100000x128_S1700000x1_S1700000x128_1_0_n_n_0_1_1128 (W6 (F := Ideal) m ρ c (Proc.devRef .tc main_v31)) (Cert.ReferenceIdeal.ReadP.val_main_v57 (F := Ideal) (m ((c.tc : Thread nD τ).loc main_arg10)))) := by
  dsimp only [W7]
  generalize hV : W6 (F := Ideal) m ρ c = V'
  after_results_simp
  subst hV
  rw [keep_v8_1_6, pre_main_v8, keep_v5_1_6, pre_main_v5]
  rfl

set_option maxHeartbeats 1000000 in
/-- The same stretch reshapes the layer's bias to a row. -/
theorem bias1 : W7 (F := Ideal) m ρ c (Proc.devRef .tc main_v42)
    = biasRow (m ((c.tc : Thread nD τ).loc main_arg5)) := by
  dsimp only [W7]
  generalize hV : W6 (F := Ideal) m ρ c = V'
  after_results_simp
  subst hV
  rw [keep_arg5_0_6]
  rfl

set_option maxHeartbeats 1000000 in
/-- The stretch after region 2: the rows region 2 left, gathered along the edges and added into their target rows. -/
theorem aggregate2 : W9 (F := Ideal) m ρ c (Proc.devRef .tc main_v53)
    = Host.scatterAdd (F := Ideal) (φ := .f32) Cert.ReferenceIdeal.scatter_S100000x128_S1700000x1_S1700000x128_1_0_0_1 (Cert.ReferenceIdeal.ReadP.val_main_v80 (F := Ideal)) (Cert.ReferenceIdeal.ReadP.val_main_v81 (F := Ideal) (m ((c.tc : Thread nD τ).loc main_arg10)))
        (Host.gather Cert.ReferenceIdeal.gather_S100000x128_S1700000x1_S1700000x128_1_0_n_n_0_1_1128 (W8 (F := Ideal) m ρ c (Proc.devRef .tc main_v43)) (Cert.ReferenceIdeal.ReadP.val_main_v75 (F := Ideal) (m ((c.tc : Thread nD τ).loc main_arg10)))) := by
  dsimp only [W9]
  generalize hV : W8 (F := Ideal) m ρ c = V'
  after_results_simp
  subst hV
  rw [keep_v8_1_8, pre_main_v8, keep_v5_1_8, pre_main_v5]
  rfl

set_option maxHeartbeats 1000000 in
/-- The same stretch reshapes the layer's bias to a row. -/
theorem bias2 : W9 (F := Ideal) m ρ c (Proc.devRef .tc main_v54)
    = biasRow (m ((c.tc : Thread nD τ).loc main_arg7)) := by
  dsimp only [W9]
  generalize hV : W8 (F := Ideal) m ρ c = V'
  after_results_simp
  subst hV
  rw [keep_arg7_0_8]
  rfl

end Cert.KernelIdeal.Chain

end
-- ==== Proof.GcnLaw.lean ====
/-
  The two facts about the extended reals that join the per-edge and the per-node scalings of a graph
  convolution.  The network scales a node's row by `d n = deg n ^ (-1/2)` where the degree is positive and by
  `0` elsewhere.  Whatever the degree, `d n` is a nonnegative finite number; and multiplication by a
  nonnegative finite number distributes over a finite sum of extended reals (it would not for a negative or an
  infinite factor: `⊤ + ⊥` is `⊥`), so scaling every message by `d n` and scaling their sum by `d n` agree.
-/
import Idealize.ShloMosaic.PureOps.Ideal
import Idealize.ShloMosaic.PureOps.Ideal.Laws

noncomputable section

namespace Cert.GcnLaw

open Idealize.ShloMosaic

/-- The exponent's pattern denotes `-1/2`. -/
theorem ofBits_neg_half : Ideal.ofBits .f32 0xBF000000#32 = ((-(1 / 2) : ℝ) : EReal) := by
  simp [Ideal.ofBits, Ideal.ieee, -EReal.coe_mul]; norm_num

/-- The node factor — `deg ^ (-1/2)` where `0 < deg`, `0` elsewhere — is nonnegative and finite at every
    extended real `deg`: a positive real's power is a nonnegative real, `⊤ ^ (-1/2)` is `0`. -/
theorem nodeFactor_range (deg : EReal) :
    0 ≤ Scalar.select (Ideal.cmp .ogt deg (Ideal.ofBits .f32 0x00000000#32))
          (Ideal.pow deg (Ideal.ofBits .f32 0xBF000000#32)) (Ideal.ofBits .f32 0x00000000#32)
    ∧ Scalar.select (Ideal.cmp .ogt deg (Ideal.ofBits .f32 0x00000000#32))
          (Ideal.pow deg (Ideal.ofBits .f32 0xBF000000#32)) (Ideal.ofBits .f32 0x00000000#32) ≠ ⊤ := by
  rw [Ideal.ofBits_zero_f32, ofBits_neg_half]
  by_cases h : (0 : EReal) < deg
  · have hc : Ideal.cmp .ogt deg 0 = 1 := by simp [Ideal.cmp, h]
    rw [hc]
    show 0 ≤ Ideal.pow deg _ ∧ Ideal.pow deg _ ≠ ⊤
    induction deg using EReal.rec with
    | bot => exact absurd h (by simp)
    | top =>
      rw [Ideal.pow_top]
      have h1 : ¬ (0 : EReal) < ((-(1 / 2) : ℝ) : EReal) := by
        rw [not_lt]; exact_mod_cast (by norm_num : (-(1 / 2) : ℝ) ≤ 0)
      have h2 : ((-(1 / 2) : ℝ) : EReal) ≠ 0 := by exact_mod_cast (by norm_num : (-(1 / 2) : ℝ) ≠ 0)
      rw [if_neg h1, if_neg h2]
      exact ⟨le_refl 0, EReal.zero_ne_top⟩
    | coe x =>
      rw [Ideal.pow_coe_coe]
      have hx : 0 ≤ x := le_of_lt (by exact_mod_cast h)
      exact ⟨by exact_mod_cast Real.rpow_nonneg hx _, EReal.coe_ne_top _⟩
  · have hc : Ideal.cmp .ogt deg 0 = 0 := by simp [Ideal.cmp, h]
    rw [hc]
    show (0 : EReal) ≤ 0 ∧ (0 : EReal) ≠ ⊤
    exact ⟨le_refl 0, EReal.zero_ne_top⟩

/-- Multiplication by a nonnegative finite factor distributes over a finite sum of extended reals. -/
theorem sum_mul_of_nonneg {ι : Type*} (s : Finset ι) (f : ι → EReal) {c : EReal} (h0 : 0 ≤ c) (ht : c ≠ ⊤) :
    (∑ u ∈ s, f u) * c = ∑ u ∈ s, f u * c := by
  classical
  induction s using Finset.induction_on with
  | empty => simp
  | insert a s ha ih =>
    rw [Finset.sum_insert ha, Finset.sum_insert ha, EReal.right_distrib_of_nonneg_of_ne_top h0 ht, ih]

/-- The aggregation law: messages `h u · a u` summed from zero and then scaled by the target's factor `c` are
    the messages `h u · (a u · c)` summed from zero. -/
theorem aggregate_scale {ι : Type*} (s : Finset ι) (h a : ι → EReal) {c : EReal} (h0 : 0 ≤ c) (ht : c ≠ ⊤) :
    (0 + ∑ u ∈ s, h u * a u) * c = 0 + ∑ u ∈ s, h u * (a u * c) := by
  rw [zero_add, zero_add, sum_mul_of_nonneg s _ h0 ht]
  exact Finset.sum_congr rfl fun u _ => mul_assoc _ _ _

end Cert.GcnLaw

end
-- ==== Proof.GcnIndex.lean ====
/-
  Where a row gather reads and where a row scatter lands, for the dimension numbers of `h[idx]` (take rows of a
  100000 × 128 matrix by 1700000 indices), `d[idx]` (take entries of a length-100000 vector) and of a
  `segment_sum` of 1700000 rows into 100000 (one scatter index per row, the feature axis a window).
  Update `u = (e, j)` of the gather reads row `min (idx e).toNat 99999` — the index read signed and clamped —
  at column `j`; the same update of the scatter lands at row `idx e`, column `j`, when `0 ≤ idx e < 100000`, and
  is dropped otherwise.  So an edge the scatter keeps is read by the gathers at exactly the row it lands on.
-/
import Idealize.ShloMosaic.PureOps.ShapeOps
import Idealize.ShloMosaic.Lib.ValueIdx

noncomputable section

namespace Cert.GcnIndex

open Idealize.ShloMosaic Idealize.ShloMosaic.ValueIdx

abbrev SN : Shape := ⟨1, ![100000]⟩
abbrev SNH : Shape := ⟨2, ![100000, 128]⟩
abbrev SE : Shape := ⟨1, ![1700000]⟩
abbrev SE1 : Shape := ⟨2, ![1700000, 1]⟩
abbrev SEH : Shape := ⟨2, ![1700000, 128]⟩

/-- Rows of a 100000 × 128 matrix taken by 1700000 indices. -/
abbrev rowGather (wf : GatherDims.WF SNH SE1 SEH [1] [0] [] [0] [] 1 ![1, 128]) : GatherDims SNH SE1 SEH where
  offsetDims := [1]
  collapsedSliceDims := [0]
  operandBatchingDims := []
  startIndicesBatchingDims := []
  startIndexMap := [0]
  indexVectorDim := 1
  sliceSizes := ![1, 128]
  wf := wf

/-- Entries of a length-100000 vector taken by 1700000 indices. -/
abbrev nodeGather (wf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := wf

/-- 1700000 rows added into the rows of a 100000 × 128 matrix that their indices name. -/
abbrev rowScatter (wf : ScatterDims.WF SNH SE1 SEH [1] [0] [0] 1) : ScatterDims SNH SE1 SEH where
  updateWindowDims := [1]
  insertedWindowDims := [0]
  scatterDimsToOperandDims := [0]
  indexVectorDim := 1
  wf := wf

variable {w : Nat}

/-- The row gather's row: the index of edge `u 0`, read signed and clamped into `[0, 99999]`. -/
theorem rowGather_row (wf) (idx : IVec SE1 w) (u : SEH.Idx) :
    ((rowGather wf).operandIdx u idx 0).val = min (idx (ix2 (u 0 : Fin 1700000) (0 : Fin 1))).toInt.toNat 99999 := by
  show (rowGather wf).start u idx 0 + (rowGather wf).batchCoord u 0 + (rowGather wf).offCoord u 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather wf).startIndexMap from List.mem_singleton.mpr rfl)]
  have hsi : (rowGather wf).siIdx u ⟨List.idxOf (0 : Fin 2) (rowGather wf).startIndexMap,
      List.idxOf_lt_length_iff.2 (List.mem_singleton.mpr rfl)⟩ = ix2 (u 0 : Fin 1700000) (0 : Fin 1) := by
    funext b; refine Fin.ext ?_
    match b with
    | ⟨0, _⟩ => rfl
    | ⟨1, _⟩ => rfl
  rw [hsi]
  rfl

/-- The row gather's column: the update's own column. -/
theorem rowGather_col (wf) (idx : IVec SE1 w) (u : SEH.Idx) :
    ((rowGather wf).operandIdx u idx 1).val = (u 1).val := by
  show (rowGather wf).start u idx 1 + (rowGather wf).batchCoord u 1 + (rowGather wf).offCoord u 1 = _
  rw [GatherDims.batchCoord_eq_zero _ _ _ List.not_mem_nil]
  unfold GatherDims.start
  rw [dif_neg (show (1 : Fin 2) ∉ ([0] : List (Fin 2)) by decide)]
  simp only [Nat.zero_add, Nat.add_zero]
  rfl

/-- The node gather's entry: the index of edge `e 0`, read signed and clamped into `[0, 99999]`. -/
theorem nodeGather_row (wf) (idx : IVec SE1 w) (e : SE.Idx) :
    ((nodeGather wf).operandIdx e idx 0).val = min (idx (ix2 (e 0 : Fin 1700000) (0 : Fin 1))).toInt.toNat 99999 := by
  show (nodeGather wf).start e idx 0 + (nodeGather wf).batchCoord e 0 + (nodeGather wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (nodeGather wf).startIndexMap from List.mem_singleton.mpr rfl)]
  have hsi : (nodeGather wf).siIdx e ⟨List.idxOf (0 : Fin 1) (nodeGather wf).startIndexMap,
      List.idxOf_lt_length_iff.2 (List.mem_singleton.mpr rfl)⟩ = ix2 (e 0 : Fin 1700000) (0 : Fin 1) := by
    funext b; refine Fin.ext ?_
    match b with
    | ⟨0, _⟩ => rfl
    | ⟨1, _⟩ => rfl
  rw [hsi]
  rfl

/-- An update the row scatter keeps lands on the row its index names: the index, read signed, is that row. -/
theorem rowScatter_row (wf) (idx : IVec SE1 w) (u : SEH.Idx) (i : SNH.Idx)
    (h : (rowScatter wf).resultIdx? u idx = some i) :
    (idx (ix2 (u 0 : Fin 1700000) (0 : Fin 1))).toInt = ((i 0).val : Int) := by
  unfold ScatterDims.resultIdx? at h
  split at h
  · rename_i hb
    have hi := Option.some.inj h
    have h0 := congrArg (fun f => (f 0).val) hi
    simp only at h0
    have hw : (rowScatter wf).window u 0 = 0 := by
      unfold ScatterDims.window
      rw [dif_neg (show (0 : Fin 2) ∉ SNH.kept ([0] : List (Fin 2)) by decide)]
    have hs : (rowScatter wf).start u idx 0 = (idx (ix2 (u 0 : Fin 1700000) (0 : Fin 1))).toInt := by
      unfold ScatterDims.start
      rw [dif_pos (show (0 : Fin 2) ∈ (rowScatter wf).scatterDimsToOperandDims from List.mem_singleton.mpr rfl)]
      have hsi : (rowScatter wf).siIdx u ⟨List.idxOf (0 : Fin 2) (rowScatter wf).scatterDimsToOperandDims,
          List.idxOf_lt_length_iff.2 (List.mem_singleton.mpr rfl)⟩ = ix2 (u 0 : Fin 1700000) (0 : Fin 1) := by
        funext b; refine Fin.ext ?_
        match b with
        | ⟨0, _⟩ => rfl
        | ⟨1, _⟩ => rfl
      rw [hsi]
      rfl
    have hb0 := hb 0
    rw [hs, hw] at hb0
    rw [hs, hw] at h0
    omega
  · exact absurd h (by simp)

end Cert.GcnIndex

end
-- ==== Proof.GcnLayer.lean ====
/-
  One layer's aggregation, both ways.  The reference gathers the rows of `H` along the edges, scales edge `e`'s
  row by `D (src e) · D (dst e)` and adds it into row `dst e`; the kernel scales row `n` of `H` by `D n` first,
  gathers and adds the rows unscaled, and scales row `n` of the sum by `D n` afterwards.  An edge whose target
  index is outside `[0, 100000)` is dropped by the sum on both sides; for an edge that is kept, the row the sum
  lands on is the row the target gather reads.  With `0 ≤ D n < ⊤` the two sums agree term by term.
-/
import proofs.«119056_j34703335751945_2_alg».proof.Proof.GcnSpec
import proofs.«119056_j34703335751945_2_alg».proof.Proof.GcnLaw
import proofs.«119056_j34703335751945_2_alg».proof.Proof.GcnIndex
import Idealize.ShloMosaic.PureOps.Contract

noncomputable section

namespace Cert.GcnLayer

open Idealize.ShloMosaic Idealize.ShloMosaic.ValueIdx Cert.GcnIndex Cert.GcnSpec

/-- An index that is nonnegative read signed is left alone by jnp's wrap of negative indices,
    `select (x < 0) (x + 100000) x`. -/
theorem wrap_of_nonneg (x : BitVec 32) (h : 0 ≤ x.toInt) :
    Scalar.select (IntOp.cmpi .slt x 0#32) (IntOp.addi x 100000#32) x = x := by
  have hc : IntOp.cmpi .slt x 0#32 = 0#1 := by
    simp only [IntOp.cmpi]
    have h' : ¬ x.toInt < 0 := by omega
    simp [BitVec.slt, h']
  rw [hc]; rfl

/-- The aggregation law at an index (see the module's header). -/
theorem aggregate (wfG wfN wfS) (H H' : SNH.Idx → EReal) (D : SN.Idx → EReal) (D2 : Mat 100000 1)
    (idxS idxT idxD : IVec SE1 32) (z : SNH.Idx → EReal)
    (hD : ∀ n, 0 ≤ D n ∧ D n ≠ ⊤)
    (hD2 : ∀ n : Fin 100000, D2 (ix2 n (0 : Fin 1)) = D (ix1 n))
    (hH' : ∀ k : SNH.Idx, H' k = H k * D2 (ix2 (k 0 : Fin 100000) (0 : Fin 1)))
    (hT : ∀ e : Fin 1700000, 0 ≤ (idxD (ix2 e (0 : Fin 1))).toInt → (idxD (ix2 e (0 : Fin 1))).toInt < 100000 →
        idxT (ix2 e (0 : Fin 1)) = idxD (ix2 e (0 : Fin 1)))
    (hz : ∀ i, z i = 0) (i : SNH.Idx) :
    Host.scatterAdd (F := Ideal) (φ := .f32) (rowScatter wfS) z idxD (Host.gather (rowGather wfG) H' idxS) i
        * D2 (ix2 (i 0 : Fin 100000) (0 : Fin 1))
      = Host.scatterAdd (F := Ideal) (φ := .f32) (rowScatter wfS) z idxD
          (fun u => Host.gather (rowGather wfG) H idxS u *
            (Host.gather (nodeGather wfN) D idxS (ix1 (u 0 : Fin 1700000))
              * Host.gather (nodeGather wfN) D idxT (ix1 (u 0 : Fin 1700000)))) i := by
  show (z i + ∑ u ∈ Finset.univ.filter (fun u => (rowScatter wfS).resultIdx? u idxD = some i),
          Host.gather (rowGather wfG) H' idxS u) * _
      = z i + ∑ u ∈ Finset.univ.filter (fun u => (rowScatter wfS).resultIdx? u idxD = some i), _
  have hc := hD (ix1 (i 0 : Fin 100000))
  rw [hz, hD2 (i 0)]
  have hL : ∀ u : SEH.Idx, Host.gather (rowGather wfG) H' idxS u
      = Host.gather (rowGather wfG) H idxS u * D (ix1 (((rowGather wfG).operandIdx u idxS) 0 : Fin 100000)) := by
    intro u
    exact (hH' _).trans (congrArg (fun t => H ((rowGather wfG).operandIdx u idxS) * t) (hD2 _))
  rw [Finset.sum_congr rfl (fun u _ => hL u), GcnLaw.aggregate_scale _ _ _ hc.1 hc.2]
  refine congrArg (fun t => (0 : EReal) + t) (Finset.sum_congr rfl fun u hu => ?_)
  have hmem : (rowScatter wfS).resultIdx? u idxD = some i := (Finset.mem_filter.mp hu).2
  have hrow := rowScatter_row wfS idxD u i hmem
  have hlt : ((i 0 : Fin 100000).val : Int) < 100000 := by exact_mod_cast (i 0 : Fin 100000).isLt
  have hTe := hT (u 0 : Fin 1700000) (by rw [hrow]; exact Int.natCast_nonneg _) (by rw [hrow]; exact hlt)
  refine congrArg (fun t => Host.gather (rowGather wfG) H idxS u * t) ?_
  have e1 : D (ix1 (((rowGather wfG).operandIdx u idxS) 0 : Fin 100000))
      = Host.gather (nodeGather wfN) D idxS (ix1 (u 0 : Fin 1700000)) := by
    show D _ = D _
    refine congrArg D (funext fun a => ?_)
    obtain rfl : a = 0 := Subsingleton.elim _ _
    refine Fin.ext ?_
    show ((rowGather wfG).operandIdx u idxS 0).val = ((nodeGather wfN).operandIdx (ix1 (u 0 : Fin 1700000)) idxS 0).val
    rw [rowGather_row, nodeGather_row]
  have e2 : D (ix1 (i 0 : Fin 100000))
      = Host.gather (nodeGather wfN) D idxT (ix1 (u 0 : Fin 1700000)) := by
    show D _ = D _
    refine congrArg D (funext fun a => ?_)
    obtain rfl : a = 0 := Subsingleton.elim _ _
    refine Fin.ext ?_
    show (i 0 : Fin 100000).val = ((nodeGather wfN).operandIdx (ix1 (u 0 : Fin 1700000)) idxT 0).val
    rw [nodeGather_row]
    show (i 0 : Fin 100000).val = min (idxT (ix2 (u 0 : Fin 1700000) (0 : Fin 1))).toInt.toNat 99999
    rw [hTe, hrow]
    have := (i 0 : Fin 100000).isLt
    simp only [Int.toNat_natCast]
    omega
  rw [e1, e2]

end Cert.GcnLayer

end
-- ==== Proof.RefLayers.lean ====
/-
  The reference's three graph-convolution layers, read at an index and joined to the kernel's arrangement.
  Per layer the reference forms the product H = (previous output) · W, gathers the rows of H along the edges'
  sources, multiplies edge e's row by its weight D (src e) · D (dst e), adds the rows into the rows the edges'
  targets name, adds the bias row and clamps at zero.  The kernel scales row n of H by D n first, gathers and
  adds the rows unweighted, and scales row n of the sum by D n afterwards; the two agree because every node
  factor D n is a nonnegative finite number, and because an edge the sum keeps has its target in range, where
  the wrap of negative indices leaves it alone.
-/
import proofs.«119056_j34703335751945_2_alg».proof.Proof.RefReadP
import proofs.«119056_j34703335751945_2_alg».proof.Proof.GcnSpec
import proofs.«119056_j34703335751945_2_alg».proof.Proof.GcnLayer

noncomputable section

namespace Cert.RefLayers

open Idealize.ShloMosaic Idealize.ShloMosaic.ValueIdx
open Cert.ReferenceIdeal Cert.ReferenceIdeal.ReadP Cert.GcnSpec

variable (x0 : (⟨S100000, .f32⟩ : BufTy).Contents (Elt Ideal)) (x1 : (⟨S100000x3, .f32⟩ : BufTy).Contents (Elt Ideal)) (x2 : (⟨S4x128, .f32⟩ : BufTy).Contents (Elt Ideal))
  (x3 : (⟨S128, .f32⟩ : BufTy).Contents (Elt Ideal)) (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal)) (x10 : (⟨S2x1600000, .i32⟩ : BufTy).Contents (Elt Ideal))

/-! ## The node factors -/

/-- Every node factor — `deg ^ (-1/2)` where the degree is positive, zero elsewhere — is a nonnegative finite number. -/
theorem factor_range (n : S100000.Idx) :
    0 ≤ val_main_v17 (F := Ideal) x10 n ∧ val_main_v17 (F := Ideal) x10 n ≠ ⊤ := by
  have e : val_main_v17 (F := Ideal) x10 n
      = Scalar.select (Ideal.cmp .ogt (val_main_v12 (F := Ideal) x10 n) (Ideal.ofBits .f32 0x00000000#32))
          (Ideal.pow (val_main_v12 (F := Ideal) x10 n) (Ideal.ofBits .f32 0xBF000000#32)) (Ideal.ofBits .f32 0x00000000#32) := by
    rewrite [val_main_v17_apply, val_main_v14_apply, val_main_v16_apply, val_main_v13_apply, val_main_v15_apply,
      val_main_call0_v1_apply]
    rfl
  rw [e]
  exact Cert.GcnLaw.nodeFactor_range _

/-! ## The edges' endpoints -/

/-- The edge weights' source gather and the three layers' row gathers read the same wrapped sources. -/
theorem sources_weight : val_main_v23 (F := Ideal) x10 = val_main_v39 (F := Ideal) x10 := rfl
theorem sources1 : val_main_v57 (F := Ideal) x10 = val_main_v39 (F := Ideal) x10 := rfl
theorem sources2 : val_main_v75 (F := Ideal) x10 = val_main_v39 (F := Ideal) x10 := rfl
/-- The three layers add along the same targets. -/
theorem targets1 : val_main_v63 (F := Ideal) x10 = val_main_v45 (F := Ideal) x10 := rfl
theorem targets2 : val_main_v81 (F := Ideal) x10 = val_main_v45 (F := Ideal) x10 := rfl

/-- For an edge whose target, read signed, is a node, the wrapped target the weights' gather reads is the target. -/
theorem wrapped_target (e : Fin 1700000)
    (h0 : 0 ≤ (val_main_v45 (F := Ideal) x10 (ix2 e (0 : Fin 1))).toInt)
    (h1 : (val_main_v45 (F := Ideal) x10 (ix2 e (0 : Fin 1))).toInt < 100000) :
    val_main_v30 (F := Ideal) x10 (ix2 e (0 : Fin 1)) = val_main_v45 (F := Ideal) x10 (ix2 e (0 : Fin 1)) := by
  have hj : idx_main_v30 (ix2 e (0 : Fin 1)) = idx_main_v45 (ix2 e (0 : Fin 1)) :=
    funext fun a => Fin.ext (by match a with | ⟨0, _⟩ => rfl)
  rewrite [val_main_v45_apply] at h0 ⊢
  rewrite [val_main_v30_apply, val_main_v29_apply, val_main_v26_apply, val_main_v28_apply, val_main_v25_apply,
    val_main_v27_apply, hj]
  exact Cert.GcnLayer.wrap_of_nonneg _ h0

/-- An edge's weight: the node factor at its source times the node factor at its target. -/
theorem edge_weight (u : S1700000x128.Idx) :
    val_main_v32 (F := Ideal) x10 (ix1 (u 0 : Fin 1700000))
      = (Host.gather gather_S100000_S1700000x1_S1700000_n_0_n_n_0_1_1 (val_main_v17 (F := Ideal) x10) (val_main_v39 (F := Ideal) x10) (ix1 (u 0 : Fin 1700000))
        * Host.gather gather_S100000_S1700000x1_S1700000_n_0_n_n_0_1_1 (val_main_v17 (F := Ideal) x10) (val_main_v30 (F := Ideal) x10) (ix1 (u 0 : Fin 1700000))) := by
  rewrite [val_main_v32_apply]
  unfold val_main_v24 val_main_v31
  rewrite [sources_weight]
  rfl

/-! ## The reference's dimension records are the literal ones -/

theorem rows_eq : Cert.GcnIndex.rowGather gather_S100000x128_S1700000x1_S1700000x128_1_0_n_n_0_1_1128.wf = gather_S100000x128_S1700000x1_S1700000x128_1_0_n_n_0_1_1128 := rfl
theorem entries_eq : Cert.GcnIndex.nodeGather gather_S100000_S1700000x1_S1700000_n_0_n_n_0_1_1.wf = gather_S100000_S1700000x1_S1700000_n_0_n_n_0_1_1 := rfl
theorem addRows_eq : Cert.GcnIndex.rowScatter scatter_S100000x128_S1700000x1_S1700000x128_1_0_0_1.wf = scatter_S100000x128_S1700000x1_S1700000x128_1_0_0_1 := rfl

/-- A layer's activation at an index. -/
theorem activation_apply (a : Mat 100000 128) (d : Mat 100000 1) (b : Mat 1 128) (i : (⟨2, ![100000, 128]⟩ : Shape).Idx) :
    activation a d b i = max (a i * d (ix2 (i 0 : Fin 100000) (0 : Fin 1)) + b (ix2 (0 : Fin 1) (i 1 : Fin 128))) 0 := rfl

/-! ## Layer 0 -/

/-- Edge `u 0`'s message at feature `u 1`: the gathered row of the layer's product times the edge's weight. -/
theorem message0 (u : S1700000x128.Idx) :
    val_main_v43 (F := Ideal) x0 x1 x2 x10 u
      = Host.gather gather_S100000x128_S1700000x1_S1700000x128_1_0_n_n_0_1_1128 (val_main_v33 (F := Ideal) x0 x1 x2) (val_main_v39 (F := Ideal) x10) u
        * (Host.gather gather_S100000_S1700000x1_S1700000_n_0_n_n_0_1_1 (val_main_v17 (F := Ideal) x10) (val_main_v39 (F := Ideal) x10) (ix1 (u 0 : Fin 1700000))
        * Host.gather gather_S100000_S1700000x1_S1700000_n_0_n_n_0_1_1 (val_main_v17 (F := Ideal) x10) (val_main_v30 (F := Ideal) x10) (ix1 (u 0 : Fin 1700000))) := by
  have hi : idx_main_v41 (idx_main_v42 u) = ix1 (u 0 : Fin 1700000) :=
    funext fun a => Fin.ext (by match a with | ⟨0, _⟩ => rfl)
  rewrite [val_main_v43_apply, val_main_v42_apply, val_main_v41_apply, hi]
  exact congrArg (fun t => val_main_v40 (F := Ideal) x0 x1 x2 x10 u * t) (edge_weight x10 u)

/-- The layer's output, from the kernel's arrangement: the rows of the product scaled by the node factors, gathered
    and added along the edges, scaled again at the target, plus the bias, clamped at zero. -/
theorem layer0 (D2 : Mat 100000 1) (brow : Mat 1 128) (H' : Mat 100000 128)
    (hD2 : ∀ n : Fin 100000, D2 (ix2 n (0 : Fin 1)) = val_main_v17 (F := Ideal) x10 (ix1 n))
    (hb : ∀ j : Fin 128, brow (ix2 (0 : Fin 1) j) = x3 (ix1 j))
    (hH' : ∀ k, H' k = val_main_v33 (F := Ideal) x0 x1 x2 k * D2 (ix2 (k 0 : Fin 100000) (0 : Fin 1))) :
    activation (Host.scatterAdd (F := Ideal) (φ := .f32) scatter_S100000x128_S1700000x1_S1700000x128_1_0_0_1 (val_main_v44 (F := Ideal)) (val_main_v45 (F := Ideal) x10)
        (Host.gather gather_S100000x128_S1700000x1_S1700000x128_1_0_n_n_0_1_1128 H' (val_main_v39 (F := Ideal) x10))) D2 brow
      = val_main_v50 (F := Ideal) x0 x1 x2 x3 x10 := by
  funext i
  have hz : ∀ i, val_main_v44 (F := Ideal) i = 0 := fun i => by
    rewrite [val_main_v44_apply]; exact Ideal.ofBits_zero_f32
  have hagg := Cert.GcnLayer.aggregate gather_S100000x128_S1700000x1_S1700000x128_1_0_n_n_0_1_1128.wf gather_S100000_S1700000x1_S1700000_n_0_n_n_0_1_1.wf scatter_S100000x128_S1700000x1_S1700000x128_1_0_0_1.wf
    (val_main_v33 (F := Ideal) x0 x1 x2) H' (val_main_v17 (F := Ideal) x10) D2 (val_main_v39 (F := Ideal) x10) (val_main_v30 (F := Ideal) x10) (val_main_v45 (F := Ideal) x10)
    (val_main_v44 (F := Ideal)) (factor_range x10) hD2 hH' (wrapped_target x10) hz i
  rewrite [rows_eq, entries_eq, addRows_eq] at hagg
  have hbias : brow (ix2 (0 : Fin 1) (i 1 : Fin 128)) = val_main_v48 (F := Ideal) x3 i := by
    have hj : idx_main_v47 (idx_main_v48 i) = ix1 (i 1 : Fin 128) :=
      funext fun a => Fin.ext (by match a with | ⟨0, _⟩ => rfl)
    rewrite [val_main_v48_apply, val_main_v47_apply, hj]
    exact hb (i 1)
  have hzero : (0 : EReal) = val_main_call1_v0 (F := Ideal) i := by
    rewrite [val_main_call1_v0_apply]; exact Ideal.ofBits_zero_f32.symm
  rewrite [activation_apply, hagg, val_main_v50_apply, val_main_v49_apply, Ideal.maximumf_def, Ideal.addf_def,
    ← hzero, ← hbias]
  unfold val_main_v46
  rewrite [funext (message0 x0 x1 x2 x10)]
  rfl

/-- The first layer's product with its rows scaled, from the reference's product. -/
theorem product0 (D2 : Mat 100000 1) (k : (⟨2, ![100000, 128]⟩ : Shape).Idx) :
    scaledProduct (val_main_v1 (F := Ideal) x0 x1) x2 D2 k = val_main_v33 (F := Ideal) x0 x1 x2 k * D2 (ix2 (k 0 : Fin 100000) (0 : Fin 1)) := by
  have hl : ∀ t : Fin 4, lidx_main_v33 k t = ix2 (k 0 : Fin 100000) t := fun t =>
    funext fun a => Fin.ext (by match a with | ⟨0, _⟩ => rfl | ⟨1, _⟩ => rfl)
  have hr : ∀ t : Fin 4, ridx_main_v33 k t = ix2 t (k 1 : Fin 128) := fun t =>
    funext fun a => Fin.ext (by match a with | ⟨0, _⟩ => rfl | ⟨1, _⟩ => rfl)
  show (∑ t : Fin 4, val_main_v1 (F := Ideal) x0 x1 (ix2 (k 0 : Fin 100000) t) * x2 (ix2 t (k 1 : Fin 128)))
      * D2 (ix2 (k 0 : Fin 100000) (0 : Fin 1)) = _
  rewrite [val_main_v33_apply]
  refine congrArg (· * D2 (ix2 (k 0 : Fin 100000) (0 : Fin 1))) (Finset.sum_congr rfl fun t _ => ?_)
  rewrite [hl t, hr t]
  rfl

/-! ## Layer 1 -/

/-- Edge `u 0`'s message at feature `u 1`: the gathered row of the layer's product times the edge's weight. -/
theorem message1 (u : S1700000x128.Idx) :
    val_main_v61 (F := Ideal) x0 x1 x2 x3 x4 x10 u
      = Host.gather gather_S100000x128_S1700000x1_S1700000x128_1_0_n_n_0_1_1128 (val_main_v51 (F := Ideal) x0 x1 x2 x3 x4 x10) (val_main_v39 (F := Ideal) x10) u
        * (Host.gather gather_S100000_S1700000x1_S1700000_n_0_n_n_0_1_1 (val_main_v17 (F := Ideal) x10) (val_main_v39 (F := Ideal) x10) (ix1 (u 0 : Fin 1700000))
        * Host.gather gather_S100000_S1700000x1_S1700000_n_0_n_n_0_1_1 (val_main_v17 (F := Ideal) x10) (val_main_v30 (F := Ideal) x10) (ix1 (u 0 : Fin 1700000))) := by
  have hi : idx_main_v59 (idx_main_v60 u) = ix1 (u 0 : Fin 1700000) :=
    funext fun a => Fin.ext (by match a with | ⟨0, _⟩ => rfl)
  rewrite [val_main_v61_apply, val_main_v60_apply, val_main_v59_apply, hi]
  exact congrArg (fun t => val_main_v58 (F := Ideal) x0 x1 x2 x3 x4 x10 u * t) (edge_weight x10 u)

/-- The layer's output, from the kernel's arrangement: the rows of the product scaled by the node factors, gathered
    and added along the edges, scaled again at the target, plus the bias, clamped at zero. -/
theorem layer1 (D2 : Mat 100000 1) (brow : Mat 1 128) (H' : Mat 100000 128)
    (hD2 : ∀ n : Fin 100000, D2 (ix2 n (0 : Fin 1)) = val_main_v17 (F := Ideal) x10 (ix1 n))
    (hb : ∀ j : Fin 128, brow (ix2 (0 : Fin 1) j) = x5 (ix1 j))
    (hH' : ∀ k, H' k = val_main_v51 (F := Ideal) x0 x1 x2 x3 x4 x10 k * D2 (ix2 (k 0 : Fin 100000) (0 : Fin 1))) :
    activation (Host.scatterAdd (F := Ideal) (φ := .f32) scatter_S100000x128_S1700000x1_S1700000x128_1_0_0_1 (val_main_v62 (F := Ideal)) (val_main_v63 (F := Ideal) x10)
        (Host.gather gather_S100000x128_S1700000x1_S1700000x128_1_0_n_n_0_1_1128 H' (val_main_v57 (F := Ideal) x10))) D2 brow
      = val_main_v68 (F := Ideal) x0 x1 x2 x3 x4 x5 x10 := by
  funext i
  have hz : ∀ i, val_main_v62 (F := Ideal) i = 0 := fun i => by
    rewrite [val_main_v62_apply]; exact Ideal.ofBits_zero_f32
  have hagg := Cert.GcnLayer.aggregate gather_S100000x128_S1700000x1_S1700000x128_1_0_n_n_0_1_1128.wf gather_S100000_S1700000x1_S1700000_n_0_n_n_0_1_1.wf scatter_S100000x128_S1700000x1_S1700000x128_1_0_0_1.wf
    (val_main_v51 (F := Ideal) x0 x1 x2 x3 x4 x10) H' (val_main_v17 (F := Ideal) x10) D2 (val_main_v39 (F := Ideal) x10) (val_main_v30 (F := Ideal) x10) (val_main_v45 (F := Ideal) x10)
    (val_main_v62 (F := Ideal)) (factor_range x10) hD2 hH' (wrapped_target x10) hz i
  rewrite [rows_eq, entries_eq, addRows_eq] at hagg
  have hbias : brow (ix2 (0 : Fin 1) (i 1 : Fin 128)) = val_main_v66 (F := Ideal) x5 i := by
    have hj : idx_main_v65 (idx_main_v66 i) = ix1 (i 1 : Fin 128) :=
      funext fun a => Fin.ext (by match a with | ⟨0, _⟩ => rfl)
    rewrite [val_main_v66_apply, val_main_v65_apply, hj]
    exact hb (i 1)
  have hzero : (0 : EReal) = val_main_call2_v0 (F := Ideal) i := by
    rewrite [val_main_call2_v0_apply]; exact Ideal.ofBits_zero_f32.symm
  rewrite [sources1 x10, targets1 x10]
  rewrite [activation_apply, hagg, val_main_v68_apply, val_main_v67_apply, Ideal.maximumf_def, Ideal.addf_def,
    ← hzero, ← hbias]
  unfold val_main_v64
  rewrite [targets1 x10]
  rewrite [funext (message1 x0 x1 x2 x3 x4 x10)]
  rfl

/-- Layer 1's product with its rows scaled, from the reference's product of the layer before's output. -/
theorem product1 (a : Mat 100000 128) (d : Mat 100000 1) (b : Mat 1 128)
    (hact : activation a d b = val_main_v50 (F := Ideal) x0 x1 x2 x3 x10) (k : (⟨2, ![100000, 128]⟩ : Shape).Idx) :
    transition a d b x4 k = val_main_v51 (F := Ideal) x0 x1 x2 x3 x4 x10 k * d (ix2 (k 0 : Fin 100000) (0 : Fin 1)) := by
  have hl : ∀ t : Fin 128, lidx_main_v51 k t = ix2 (k 0 : Fin 100000) t := fun t =>
    funext fun a => Fin.ext (by match a with | ⟨0, _⟩ => rfl | ⟨1, _⟩ => rfl)
  have hr : ∀ t : Fin 128, ridx_main_v51 k t = ix2 t (k 1 : Fin 128) := fun t =>
    funext fun a => Fin.ext (by match a with | ⟨0, _⟩ => rfl | ⟨1, _⟩ => rfl)
  show (∑ t : Fin 128, activation a d b (ix2 (k 0 : Fin 100000) t) * x4 (ix2 t (k 1 : Fin 128)))
      * d (ix2 (k 0 : Fin 100000) (0 : Fin 1)) = _
  rewrite [val_main_v51_apply, hact]
  refine congrArg (· * d (ix2 (k 0 : Fin 100000) (0 : Fin 1))) (Finset.sum_congr rfl fun t _ => ?_)
  rewrite [hl t, hr t]
  rfl

/-! ## Layer 2 -/

/-- Edge `u 0`'s message at feature `u 1`: the gathered row of the layer's product times the edge's weight. -/
theorem message2 (u : S1700000x128.Idx) :
    val_main_v79 (F := Ideal) x0 x1 x2 x3 x4 x5 x6 x10 u
      = Host.gather gather_S100000x128_S1700000x1_S1700000x128_1_0_n_n_0_1_1128 (val_main_v69 (F := Ideal) x0 x1 x2 x3 x4 x5 x6 x10) (val_main_v39 (F := Ideal) x10) u
        * (Host.gather gather_S100000_S1700000x1_S1700000_n_0_n_n_0_1_1 (val_main_v17 (F := Ideal) x10) (val_main_v39 (F := Ideal) x10) (ix1 (u 0 : Fin 1700000))
        * Host.gather gather_S100000_S1700000x1_S1700000_n_0_n_n_0_1_1 (val_main_v17 (F := Ideal) x10) (val_main_v30 (F := Ideal) x10) (ix1 (u 0 : Fin 1700000))) := by
  have hi : idx_main_v77 (idx_main_v78 u) = ix1 (u 0 : Fin 1700000) :=
    funext fun a => Fin.ext (by match a with | ⟨0, _⟩ => rfl)
  rewrite [val_main_v79_apply, val_main_v78_apply, val_main_v77_apply, hi]
  exact congrArg (fun t => val_main_v76 (F := Ideal) x0 x1 x2 x3 x4 x5 x6 x10 u * t) (edge_weight x10 u)

/-- The layer's output, from the kernel's arrangement: the rows of the product scaled by the node factors, gathered
    and added along the edges, scaled again at the target, plus the bias, clamped at zero. -/
theorem layer2 (D2 : Mat 100000 1) (brow : Mat 1 128) (H' : Mat 100000 128)
    (hD2 : ∀ n : Fin 100000, D2 (ix2 n (0 : Fin 1)) = val_main_v17 (F := Ideal) x10 (ix1 n))
    (hb : ∀ j : Fin 128, brow (ix2 (0 : Fin 1) j) = x7 (ix1 j))
    (hH' : ∀ k, H' k = val_main_v69 (F := Ideal) x0 x1 x2 x3 x4 x5 x6 x10 k * D2 (ix2 (k 0 : Fin 100000) (0 : Fin 1))) :
    activation (Host.scatterAdd (F := Ideal) (φ := .f32) scatter_S100000x128_S1700000x1_S1700000x128_1_0_0_1 (val_main_v80 (F := Ideal)) (val_main_v81 (F := Ideal) x10)
        (Host.gather gather_S100000x128_S1700000x1_S1700000x128_1_0_n_n_0_1_1128 H' (val_main_v75 (F := Ideal) x10))) D2 brow
      = val_main_v86 (F := Ideal) x0 x1 x2 x3 x4 x5 x6 x7 x10 := by
  funext i
  have hz : ∀ i, val_main_v80 (F := Ideal) i = 0 := fun i => by
    rewrite [val_main_v80_apply]; exact Ideal.ofBits_zero_f32
  have hagg := Cert.GcnLayer.aggregate gather_S100000x128_S1700000x1_S1700000x128_1_0_n_n_0_1_1128.wf gather_S100000_S1700000x1_S1700000_n_0_n_n_0_1_1.wf scatter_S100000x128_S1700000x1_S1700000x128_1_0_0_1.wf
    (val_main_v69 (F := Ideal) x0 x1 x2 x3 x4 x5 x6 x10) H' (val_main_v17 (F := Ideal) x10) D2 (val_main_v39 (F := Ideal) x10) (val_main_v30 (F := Ideal) x10) (val_main_v45 (F := Ideal) x10)
    (val_main_v80 (F := Ideal)) (factor_range x10) hD2 hH' (wrapped_target x10) hz i
  rewrite [rows_eq, entries_eq, addRows_eq] at hagg
  have hbias : brow (ix2 (0 : Fin 1) (i 1 : Fin 128)) = val_main_v84 (F := Ideal) x7 i := by
    have hj : idx_main_v83 (idx_main_v84 i) = ix1 (i 1 : Fin 128) :=
      funext fun a => Fin.ext (by match a with | ⟨0, _⟩ => rfl)
    rewrite [val_main_v84_apply, val_main_v83_apply, hj]
    exact hb (i 1)
  have hzero : (0 : EReal) = val_main_call3_v0 (F := Ideal) i := by
    rewrite [val_main_call3_v0_apply]; exact Ideal.ofBits_zero_f32.symm
  rewrite [sources2 x10, targets2 x10]
  rewrite [activation_apply, hagg, val_main_v86_apply, val_main_v85_apply, Ideal.maximumf_def, Ideal.addf_def,
    ← hzero, ← hbias]
  unfold val_main_v82
  rewrite [targets2 x10]
  rewrite [funext (message2 x0 x1 x2 x3 x4 x5 x6 x10)]
  rfl

/-- Layer 2's product with its rows scaled, from the reference's product of the layer before's output. -/
theorem product2 (a : Mat 100000 128) (d : Mat 100000 1) (b : Mat 1 128)
    (hact : activation a d b = val_main_v68 (F := Ideal) x0 x1 x2 x3 x4 x5 x10) (k : (⟨2, ![100000, 128]⟩ : Shape).Idx) :
    transition a d b x6 k = val_main_v69 (F := Ideal) x0 x1 x2 x3 x4 x5 x6 x10 k * d (ix2 (k 0 : Fin 100000) (0 : Fin 1)) := by
  have hl : ∀ t : Fin 128, lidx_main_v69 k t = ix2 (k 0 : Fin 100000) t := fun t =>
    funext fun a => Fin.ext (by match a with | ⟨0, _⟩ => rfl | ⟨1, _⟩ => rfl)
  have hr : ∀ t : Fin 128, ridx_main_v69 k t = ix2 t (k 1 : Fin 128) := fun t =>
    funext fun a => Fin.ext (by match a with | ⟨0, _⟩ => rfl | ⟨1, _⟩ => rfl)
  show (∑ t : Fin 128, activation a d b (ix2 (k 0 : Fin 100000) t) * x6 (ix2 t (k 1 : Fin 128)))
      * d (ix2 (k 0 : Fin 100000) (0 : Fin 1)) = _
  rewrite [val_main_v69_apply, hact]
  refine congrArg (· * d (ix2 (k 0 : Fin 100000) (0 : Fin 1))) (Finset.sum_congr rfl fun t _ => ?_)
  rewrite [hl t, hr t]
  rfl

end Cert.RefLayers

end
-- ==== Proof.ChainLayers.lean ====
/-
  The three layers joined to the reference.  With the aggregation law (the reference's side of it read stage
  by stage) each activation the kernel forms — the gathered-and-added scaled rows, scaled by the target's factor,
  plus the bias, clamped at zero — is the reference's activation; hence the array regions 1 and 2 leave is the
  reference's next matrix product with its rows scaled by the node factors, and the array region 3 leaves is the
  reference's third activation.
-/
import proofs.«119056_j34703335751945_2_alg».proof.Proof.Gen.KernelIdeal.Frame
import proofs.«119056_j34703335751945_2_alg».proof.Proof.RefReadP
import proofs.«119056_j34703335751945_2_alg».proof.Proof.ChainStretches
import proofs.«119056_j34703335751945_2_alg».proof.Proof.GcnSpec
import proofs.«119056_j34703335751945_2_alg».proof.Proof.RefLayers
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Idealize.ShloMosaic.ValueIdx Cert.GcnSpec

/-- Layer 0's activation is the reference's. -/
theorem activation0 : activation (W5 (F := Ideal) m ρ c (Proc.devRef .tc main_v29)) (factorColumn m c) (biasRow (m ((c.tc : Thread nD τ).loc main_arg3)))
    = Cert.ReferenceIdeal.ReadP.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) := by
  rw [aggregate0]
  exact Cert.RefLayers.layer0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (factorColumn m c) (biasRow (m ((c.tc : Thread nD τ).loc main_arg3))) (W4 (F := Ideal) m ρ c (Proc.devRef .tc main_v19))
    (column_apply m c) (biasRow_apply (m ((c.tc : Thread nD τ).loc main_arg3)))
    (fun k => by rw [product0]; exact Cert.RefLayers.product0 (m ((c.tc : Thread nD τ).loc main_arg0)) (m ((c.tc : Thread nD τ).loc main_arg1)) (m ((c.tc : Thread nD τ).loc main_arg2)) (factorColumn m c) k)

/-- Region 1 leaves the reference's second matrix product with its rows scaled by the node factors. -/
theorem product1 : W6 (F := Ideal) m ρ c (Proc.devRef .tc main_v31)
    = fun k => Cert.ReferenceIdeal.ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg10)) k * factorColumn m c (ix2 (k 0 : Fin 100000) (0 : Fin 1)) := by
  have h : W6 (F := Ideal) m ρ c (Proc.devRef .tc main_v31)
      = transition (W5 (F := Ideal) m ρ c (Proc.devRef .tc main_v29)) (factorColumn m c) (biasRow (m ((c.tc : Thread nD τ).loc main_arg3))) (m ((c.tc : Thread nD τ).loc main_arg4)) := by
    refine (W6_arr m ρ c 4).trans ((Cert.KernelIdeal.RegionArrays.array1 (V5 m ρ) c).trans ?_)
    show transition (W5 (F := Ideal) m ρ c (Proc.devRef .tc main_v29)) (W5 (F := Ideal) m ρ c (Proc.devRef .tc main_v18)) (W5 (F := Ideal) m ρ c (Proc.devRef .tc main_v30)) (W5 (F := Ideal) m ρ c (Proc.devRef .tc main_arg4)) = _
    rw [keep_v18_3_5, column, bias0, keep_arg4_0_5] <;> rfl
  rw [h]
  funext k
  exact Cert.RefLayers.product1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg10)) _ _ _ (activation0 m ρ c) k

/-- Layer 1's activation is the reference's. -/
theorem activation1 : activation (W7 (F := Ideal) m ρ c (Proc.devRef .tc main_v41)) (factorColumn m c) (biasRow (m ((c.tc : Thread nD τ).loc main_arg5)))
    = Cert.ReferenceIdeal.ReadP.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) := by
  rw [aggregate1]
  exact Cert.RefLayers.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (factorColumn m c) (biasRow (m ((c.tc : Thread nD τ).loc main_arg5))) (W6 (F := Ideal) m ρ c (Proc.devRef .tc main_v31))
    (column_apply m c) (biasRow_apply (m ((c.tc : Thread nD τ).loc main_arg5))) (fun k => congrFun (product1 m ρ c) k)

/-- Region 2 leaves the reference's third matrix product with its rows scaled by the node factors. -/
theorem product2 : W8 (F := Ideal) m ρ c (Proc.devRef .tc main_v43)
    = fun k => Cert.ReferenceIdeal.ReadP.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) k * factorColumn m c (ix2 (k 0 : Fin 100000) (0 : Fin 1)) := by
  have h : W8 (F := Ideal) m ρ c (Proc.devRef .tc main_v43)
      = transition (W7 (F := Ideal) m ρ c (Proc.devRef .tc main_v41)) (factorColumn m c) (biasRow (m ((c.tc : Thread nD τ).loc main_arg5))) (m ((c.tc : Thread nD τ).loc main_arg6)) := by
    refine (W8_arr m ρ c 4).trans ((Cert.KernelIdeal.RegionArrays.array2 (V7 m ρ) c).trans ?_)
    show transition (W7 (F := Ideal) m ρ c (Proc.devRef .tc main_v41)) (W7 (F := Ideal) m ρ c (Proc.devRef .tc main_v18)) (W7 (F := Ideal) m ρ c (Proc.devRef .tc main_v42)) (W7 (F := Ideal) m ρ c (Proc.devRef .tc main_arg6)) = _
    rw [keep_v18_3_7, column, bias1, keep_arg6_0_7] <;> rfl
  rw [h]
  funext k
  exact Cert.RefLayers.product2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) _ _ _ (activation1 m ρ c) k

/-- Region 3 leaves the reference's third activation. -/
theorem activation2 : W10 (F := Ideal) m ρ c (Proc.devRef .tc main_v55)
    = Cert.ReferenceIdeal.ReadP.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) := by
  have h : W10 (F := Ideal) m ρ c (Proc.devRef .tc main_v55)
      = activation (W9 (F := Ideal) m ρ c (Proc.devRef .tc main_v53)) (factorColumn m c) (biasRow (m ((c.tc : Thread nD τ).loc main_arg7))) := by
    refine (W10_arr m ρ c 3).trans ((Cert.KernelIdeal.RegionArrays.array3 (V9 m ρ) c).trans ?_)
    show activation (W9 (F := Ideal) m ρ c (Proc.devRef .tc main_v53)) (W9 (F := Ideal) m ρ c (Proc.devRef .tc main_v18)) (W9 (F := Ideal) m ρ c (Proc.devRef .tc main_v54)) = _
    rw [keep_v18_3_9, column, bias2] <;> rfl
  rw [h, aggregate2]
  exact Cert.RefLayers.layer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (factorColumn m c) (biasRow (m ((c.tc : Thread nD τ).loc main_arg7))) (W8 (F := Ideal) m ρ c (Proc.devRef .tc main_v43))
    (column_apply m c) (biasRow_apply (m ((c.tc : Thread nD τ).loc main_arg7))) (fun k => congrFun (product2 m ρ c) k)

end Cert.KernelIdeal.Chain

end
-- ==== Proof.GateRegion.lean ====
/-
  The gate region of the network has a single grid point, and every operand's block at that point is
  the operand's whole array.  So the array the region leaves in its result buffer is the body's payload
  applied to the whole input arrays as the region finds them.
-/
import proofs.«119056_j34703335751945_2_alg».proof.Proof.Gen.KernelIdeal.Frame
import Idealize.ShloMosaic.Lib.Pipeline.Value
import Idealize.ShloMosaic.PureOps.Ideal

set_option maxRecDepth 16384

noncomputable section

namespace Cert.KernelIdeal.GateRegion

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-two rectangle, however they are spelt. -/
theorem zero_offsets : (![0, 0] : Fin 2 → Nat) = fun _ => 0 := funext fun a => by fin_cases a <;> rfl

/-- The pooled features' block at the one grid point is the whole [64,128] array. -/
theorem block_features (c : Dev nD) (t : Fin cfg4.N) :
    (iblk4 V c 0 t : Vec Ideal S64x128 .f32) = V c (Pipeline.arrRef spec4 0) := by
  obtain rfl := fin_N4 t
  have hz : (fun a => win4_0.index t4_0 a * main_v67.ty.shape.size a) = fun _ => 0 :=
    funext fun a => by fin_cases a <;> decide
  exact Memref.read_access_unit_zero (Elt Ideal) main_v67 hz (fun a => by rw [congrFun hz a]; simp) _

/-- The weights' block at the one grid point is the whole [128,8] array. -/
theorem block_weights (c : Dev nD) (t : Fin cfg4.N) :
    (iblk4 V c 1 t : Vec Ideal S128x8 .f32) = V c (Pipeline.arrRef spec4 1) := by
  obtain rfl := fin_N4 t
  have hz : (fun a => win4_1.index t4_0 a * main_arg8.ty.shape.size a) = fun _ => 0 :=
    funext fun a => by fin_cases a <;> decide
  exact Memref.read_access_unit_zero (Elt Ideal) main_arg8 hz (fun a => by rw [congrFun hz a]; simp) _

/-- The bias row's block at the one grid point is the whole [1,8] array. -/
theorem block_bias (c : Dev nD) (t : Fin cfg4.N) :
    (iblk4 V c 2 t : Vec Ideal S1x8 .f32) = V c (Pipeline.arrRef spec4 2) := by
  obtain rfl := fin_N4 t
  have hz : (fun a => win4_2.index t4_0 a * main_v68.ty.shape.size a) = fun _ => 0 :=
    funext fun a => by fin_cases a <;> decide
  exact Memref.read_access_unit_zero (Elt Ideal) main_v68 hz (fun a => by rw [congrFun hz a]; simp) _

/-- What the one grid point writes back is the whole-array payload, read through the result's one block. -/
theorem flushed_eq (c : Dev nD) (t : Fin cfg4.N) :
    (dat4 (F := Ideal) V c).flushed 3 t = ((cfg4.win 3).blk t).view.read (Elt Ideal)
      (k4_pay1 (F := Ideal) (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero zero_offsets]
  simp only [View.ld_unit_zero (S := S64x128) zero_offsets, View.ld_unit_zero (S := S128x8) zero_offsets,
    View.ld_unit_zero (S := S1x8) zero_offsets]
  rw [block_features, block_weights, block_bias]
  obtain rfl := fin_N4 t
  have hz : (fun a => win4_3.index t4_0 a * main_v69.ty.shape.size a) = fun _ => 0 :=
    funext fun a => by fin_cases a <;> decide
  exact (Memref.read_access_unit_zero (Elt Ideal) main_v69 hz (fun a => by rw [congrFun hz a]; simp) _).symm

/-- Every index of the result array is in the one grid point's block. -/
theorem covered (i : S64x8.Idx) :
    ∃ t : Fin cfg4.N, (cfg4.win 3).flush t = true ∧ i ∈ ((cfg4.win 3).blk t).view.set := by
  refine ⟨t4_0, flush4_3 t4_0, ?_⟩
  show i ∈ ((View.whole main_v69).slice (win4_3.rect t4_0)).set
  rw [View.set_slice_whole, Rect.mem_set_unit]
  intro a
  have h0 : (i 0 : Nat) < 64 := (i 0).isLt
  have h1 : (i 1 : Nat) < 8 := (i 1).isLt
  match a with
  | ⟨0, _⟩ =>
    show win4_3.index t4_0 0 * win4_3.size 0 ≤ (i 0 : Nat) ∧ (i 0 : Nat) < win4_3.index t4_0 0 * win4_3.size 0 + win4_3.xsize (grid4.coords t4_0) 0
    rw [show win4_3.index t4_0 0 * win4_3.size 0 = 0 from by decide +kernel, show win4_3.xsize (grid4.coords t4_0) 0 = 64 from by decide +kernel]; omega
  | ⟨1, _⟩ =>
    show win4_3.index t4_0 1 * win4_3.size 1 ≤ (i 1 : Nat) ∧ (i 1 : Nat) < win4_3.index t4_0 1 * win4_3.size 1 + win4_3.xsize (grid4.coords t4_0) 1
    rw [show win4_3.index t4_0 1 * win4_3.size 1 = 0 from by decide +kernel, show win4_3.xsize (grid4.coords t4_0) 1 = 8 from by decide +kernel]; omega

/-- THE GATE REGION'S ARRAY: after the region, the result buffer holds the body's payload of the whole
    pooled features, weights and bias row as the region finds them. -/
theorem array4 (c : Dev nD) :
    ((dat4 (F := Ideal) V c).arrAt 3 cfg4.N) = k4_pay1 (F := Ideal) (V c (Pipeline.arrRef spec4 0)) (V c (Pipeline.arrRef spec4 1)) (V c (Pipeline.arrRef spec4 2)) :=
  (dat4 (F := Ideal) V c).arrAt_eq_of_cover 3 _ (fun t _ => flushed_eq V c t) covered

end Cert.KernelIdeal.GateRegion

end
-- ==== Proof.GateRef.lean ====
/-
  The gate of the network: a linear layer on the pooled graph features (64 graphs, 128 features, 8 experts)
  followed by a softmax over the experts.  For logits z g e = (∑ k, p g k · w k e) + b e, both programs take
  the row maximum m g = max (−∞) (max over e of z g e, from −∞), the exponentials x g e = exp (z g e − m g),
  their row sums, and the quotients x g e / ∑ e', x g e'.  The kernel body computes the maximum and the sum
  with lane reductions and spreads them back over the experts through a column; the reference does the same
  with a reduce and two broadcasts.  Read at an entry (g, e), both are one expression in the logits, and the
  two programs' logits agree entry by entry: the kernel's bias row is the reference's bias vector viewed
  as one row.
-/
import proofs.«119056_j34703335751945_2_alg».proof.Proof.Gen.KernelIdeal.Skeleton
import proofs.«119056_j34703335751945_2_alg».proof.Proof.RefReadP
import Idealize.ShloMosaic.PureOps.Ideal.Laws
import Idealize.ShloMosaic.Lib.ValueIdx
import Idealize.ShloMosaic.Lib.ValueLayout
import Idealize.ShloMosaic.Lib.Pipeline.Value

noncomputable section

namespace Cert.GateRef

open Idealize.ShloMosaic Idealize.ShloMosaic.ValueIdx

/-! ## The shapes, by their literal extents -/

/-- One entry per graph. -/
abbrev Graphs : Shape := ⟨1, ![64]⟩
/-- One column: an entry per graph, kept as a matrix. -/
abbrev GraphsCol : Shape := ⟨2, ![64, 1]⟩
/-- An entry per graph and expert. -/
abbrev GraphsExperts : Shape := ⟨2, ![64, 8]⟩
/-- One entry per expert. -/
abbrev Experts : Shape := ⟨1, ![8]⟩
/-- One row: an entry per expert, kept as a matrix. -/
abbrev ExpertsRow : Shape := ⟨2, ![1, 8]⟩
/-- A scalar. -/
abbrev Scalar0 : Shape := ⟨0, ![]⟩

/-! ## The softmax along the experts, as one expression in the logits -/

/-- −∞, as both programs spell it. -/
abbrev negInf : EReal := Ideal.ofBits .f32 0xFF800000#32

/-- The maximum of row `g` of `z` taken from −∞, and once more against −∞ as both programs take it. -/
def rowMax (z : FVec Ideal GraphsExperts .f32) (g : Fin 64) : EReal :=
  max negInf ((Finset.univ : Finset (Fin 8)).fold max negInf fun k => z (ix2 g k))

/-- The exponential of an entry less its row's maximum. -/
def expShift (z : FVec Ideal GraphsExperts .f32) (g : Fin 64) (e : Fin 8) : EReal :=
  Ideal.exp (z (ix2 g e) - rowMax z g)

/-- The softmax along the experts: each shifted exponential over the sum of its row's. -/
def softmax (z : FVec Ideal GraphsExperts .f32) : FVec Ideal GraphsExperts .f32 :=
  fun i => Ideal.div (expShift z (i 0 : Fin 64) (i 1 : Fin 8)) (∑ k : Fin 8, expShift z (i 0 : Fin 64) k)

/-! ## Rows of a [64, 8] array: the two programs' reductions along the experts -/

/-- The reduced index `g` with the expert `k` put back is (g, k). -/
theorem lift_row (h : GraphsExperts.Reduces [1] Graphs) (g : Fin 64) (k : Fin (GraphsExperts.size 1)) :
    h.lift (ix1 g) k = ix2 g (⟨k.val, k.isLt⟩ : Fin 8) := by
  funext c; apply Fin.ext
  fin_cases c <;> rfl

/-- A lane maximum along the experts from −∞, at graph `g`, is the maximum of row `g` from −∞. -/
theorem kernel_rowMax (z : FVec Ideal GraphsExperts .f32) (h : GraphsExperts.Reduces [1] Graphs) (hφ : FKind.Formats .f32)
    (hacc : (0xFF800000#32 : BitVec 32) = 0xFF800000#32) (g : Fin 64) :
    multiReduction .maximumf [1] Graphs z 0xFF800000#32 h hφ hacc (ix1 g)
      = (Finset.univ : Finset (Fin 8)).fold max negInf fun k => z (ix2 g k) := by
  refine (Ideal.multiReduction_maximumf_single z 0xFF800000#32 h hφ hacc (ix1 g)).trans ?_
  have hf : (z ∘ h.lift (ix1 g)) = fun k : Fin 8 => z (ix2 g k) := funext fun k => congrArg z (lift_row h g k)
  exact congrArg (fun f => Finset.fold max negInf f (Finset.univ : Finset (Fin 8))) hf

/-- The host's reduce with a maximum body along the experts from −∞ likewise. -/
theorem host_rowMax (z : FVec Ideal GraphsExperts .f32) (h' : GraphsExperts.ReducesTo [1] Graphs) (hu : 0 < Scalar0.numel) (g : Fin 64) :
    Host.reduce FloatOps.maximumf z (constant (F := Ideal) Scalar0 .f32 0xFF800000#32) h' hu (ix1 g)
      = (Finset.univ : Finset (Fin 8)).fold max negInf fun k => z (ix2 g k) := by
  have h : GraphsExperts.Reduces [1] Graphs := by decide
  rw [Host.reduce_eq_fold_single FloatOps.maximumf z _ h' h hu]
  have hf : (z ∘ h.lift (ix1 g)) = fun k : Fin 8 => z (ix2 g k) := funext fun k => congrArg z (lift_row h g k)
  exact congrArg (fun f => Finset.fold max negInf f (Finset.univ : Finset (Fin 8))) hf

/-- A lane sum along the experts, at graph `g`, is the sum of row `g`. -/
theorem kernel_rowSum (y : FVec Ideal GraphsExperts .f32) (h : GraphsExperts.Reduces [1] Graphs) (hφ : FKind.Formats .f32)
    (hacc : (0x00000000#32 : BitVec 32) = 0x00000000#32) (g : Fin 64) :
    multiReduction .add [1] Graphs y 0x00000000#32 h hφ hacc (ix1 g) = ∑ k : Fin 8, y (ix2 g k) :=
  (Ideal.multiReduction_add_single y 0x00000000#32 h hφ hacc (ix1 g)).trans
    (Finset.sum_congr rfl fun k _ => congrArg y (lift_row h g k))

/-- The host's sum along the experts from zero likewise. -/
theorem host_rowSum (y : FVec Ideal GraphsExperts .f32) (h' : GraphsExperts.ReducesTo [1] Graphs) (hu : 0 < Scalar0.numel) (g : Fin 64) :
    Host.reduceAdd y (constant (F := Ideal) Scalar0 .f32 0x00000000#32) h' hu (ix1 g) = ∑ k : Fin 8, y (ix2 g k) := by
  have h : GraphsExperts.Reduces [1] Graphs := by decide
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg y (lift_row h g k)

/-! ## Columns and rows: the layout operations between a reduction and the array it is spread over -/

section Layout
variable {α : Type}

/-- A [64] vector viewed as a [64, 1] column reads, at (g, u), its entry g. -/
theorem column_cast (v : Graphs.Idx → α) (h : Graphs.ShapeCasts GraphsCol) (g : Fin 64) (u : Fin 1) :
    shapeCast GraphsCol v h (ix2 g u) = v (ix1 g) :=
  shapeCast_apply v h _ _ (by
    have hu : u.val = 0 := by omega
    rw [Shape.rowMajor_val_two, Shape.rowMajor_val_one]
    show g.val = g.val * 1 + u.val
    omega)

/-- A [64, 1] column spread over the experts reads, at (g, e), the column's row g. -/
theorem column_spread (v : GraphsCol.Idx → α) (h : GraphsCol.Broadcasts GraphsExperts) (g : Fin 64) (e : Fin 8) :
    broadcastTo GraphsExperts v h (ix2 g e) = v (ix2 g (0 : Fin 1)) := by
  refine broadcastTo_apply v h (ix2 g e) (ix2 g (0 : Fin 1)) fun ax => ?_
  match ax with
  | ⟨0, _⟩ => show g.val = if (64 : Nat) = 1 then 0 else g.val; rw [if_neg (by decide)]
  | ⟨1, _⟩ => show 0 = if (1 : Nat) = 1 then 0 else e.val; rw [if_pos rfl]

/-- The host's form of the first: a [64] vector broadcast into a [64, 1] column. -/
theorem column_inDim (v : Graphs.Idx → α) (h : Graphs.BroadcastsInDim GraphsCol ![0]) (g : Fin 64) (u : Fin 1) :
    broadcastInDim GraphsCol ![0] h v (ix2 g u) = v (ix1 g) := by
  refine broadcastInDim_apply _ h v (ix2 g u) (ix1 g) fun a => ?_
  match a with
  | ⟨0, _⟩ => show g.val = if (64 : Nat) = 1 then 0 else g.val; rw [if_neg (by decide)]

/-- The host's form of the second: a [64, 1] column broadcast over the experts. -/
theorem column_spread_inDim (v : GraphsCol.Idx → α) (h : GraphsCol.BroadcastsInDim GraphsExperts ![0, 1]) (g : Fin 64) (e : Fin 8) :
    broadcastInDim GraphsExperts ![0, 1] h v (ix2 g e) = v (ix2 g (0 : Fin 1)) := by
  refine broadcastInDim_apply _ h v (ix2 g e) (ix2 g (0 : Fin 1)) fun a => ?_
  match a with
  | ⟨0, _⟩ => show g.val = if (64 : Nat) = 1 then 0 else g.val; rw [if_neg (by decide)]
  | ⟨1, _⟩ => show 0 = if (1 : Nat) = 1 then 0 else e.val; rw [if_pos rfl]

/-- A scalar broadcast to every graph reads the scalar. -/
theorem scalar_inDim (v : Scalar0.Idx → α) (h : Scalar0.BroadcastsInDim Graphs ![]) (g : Fin 64) :
    broadcastInDim Graphs ![] h v (ix1 g) = v ix0 :=
  broadcastInDim_apply _ h v (ix1 g) ix0 (fun a => a.elim0)

/-- An [8] vector broadcast into a [1, 8] row reads, at (u, e), its entry e. -/
theorem row_inDim (v : Experts.Idx → α) (h : Experts.BroadcastsInDim ExpertsRow ![1]) (u : Fin 1) (e : Fin 8) :
    broadcastInDim ExpertsRow ![1] h v (ix2 u e) = v (ix1 e) := by
  refine broadcastInDim_apply _ h v (ix2 u e) (ix1 e) fun a => ?_
  match a with
  | ⟨0, _⟩ => show e.val = if (8 : Nat) = 1 then 0 else e.val; rw [if_neg (by decide)]

/-- A [1, 8] row broadcast over the graphs reads, at (g, e), the row at e. -/
theorem row_spread_inDim (v : ExpertsRow.Idx → α) (h : ExpertsRow.BroadcastsInDim GraphsExperts ![0, 1]) (g : Fin 64) (e : Fin 8) :
    broadcastInDim GraphsExperts ![0, 1] h v (ix2 g e) = v (ix2 (0 : Fin 1) e) := by
  refine broadcastInDim_apply _ h v (ix2 g e) (ix2 (0 : Fin 1) e) fun a => ?_
  match a with
  | ⟨0, _⟩ => show 0 = if (1 : Nat) = 1 then 0 else g.val; rw [if_pos rfl]
  | ⟨1, _⟩ => show e.val = if (8 : Nat) = 1 then 0 else e.val; rw [if_neg (by decide)]

end Layout

/-! ## The kernel body: its logits, and its softmax as the operations after them -/

section Kernel
open Cert.KernelIdeal Cert.KernelIdeal.Facts₀

theorem kdot_lhs0 (i : S64x8.Idx) (q : dot_S64x128_S128x8_S64x8_1_0_0_1_n_n.contr.Idx) :
    (dot_S64x128_S128x8_S64x8_1_0_0_1_n_n.lhsIdx i q 0).val = (i 0).val := by
  unfold DotDims.lhsIdx
  rw [dif_neg (show ¬(0 : Fin S64x128.rank) ∈ dot_S64x128_S128x8_S64x8_1_0_0_1_n_n.lhsBatch by decide), dif_pos (show (0 : Fin S64x128.rank) ∈ dot_S64x128_S128x8_S64x8_1_0_0_1_n_n.lhsNonContracting by decide)]
  rfl
theorem kdot_lhs1 (i : S64x8.Idx) (q : dot_S64x128_S128x8_S64x8_1_0_0_1_n_n.contr.Idx) :
    (dot_S64x128_S128x8_S64x8_1_0_0_1_n_n.lhsIdx i q 1).val = (q ⟨0, by decide⟩).val :=
  dot_S64x128_S128x8_S64x8_1_0_0_1_n_n.lhsIdx_val_of_single rfl i q
theorem kdot_rhs0 (i : S64x8.Idx) (q : dot_S64x128_S128x8_S64x8_1_0_0_1_n_n.contr.Idx) :
    (dot_S64x128_S128x8_S64x8_1_0_0_1_n_n.rhsIdx i q 0).val = (q ⟨0, by decide⟩).val :=
  dot_S64x128_S128x8_S64x8_1_0_0_1_n_n.rhsIdx_val_of_single rfl i q
theorem kdot_rhs1 (i : S64x8.Idx) (q : dot_S64x128_S128x8_S64x8_1_0_0_1_n_n.contr.Idx) :
    (dot_S64x128_S128x8_S64x8_1_0_0_1_n_n.rhsIdx i q 1).val = (i 1).val := by
  unfold DotDims.rhsIdx
  rw [dif_neg (show ¬(1 : Fin S128x8.rank) ∈ dot_S64x128_S128x8_S64x8_1_0_0_1_n_n.rhsBatch by decide), dif_pos (show (1 : Fin S128x8.rank) ∈ dot_S64x128_S128x8_S64x8_1_0_0_1_n_n.rhsNonContracting by decide)]
  rfl

/-- The body's matrix product into a zero accumulator, at (g, e): the sum over the features. -/
theorem kernel_matmul (lhs : FVec Ideal S64x128 .bf16) (rhs : FVec Ideal S128x8 .bf16) (g : Fin 64) (e : Fin 8) :
    matmul dot_S64x128_S128x8_S64x8_1_0_0_1_n_n none lhs rhs (constant (F := Ideal) S64x8 .f32 0x00000000#32) (ix2 g e)
      = ∑ k : Fin 128, lhs (ix2 g k) * rhs (ix2 k e) := by
  simp only [matmul]
  rw [Ideal.matmul_constant_zero_apply, ← Equiv.sum_comp (ValueIdx.contrEquiv1 dot_S64x128_S128x8_S64x8_1_0_0_1_n_n 128 rfl rfl).symm]
  refine Finset.sum_congr rfl fun k _ => ?_
  have hk := ValueIdx.contrEquiv1_symm_val dot_S64x128_S128x8_S64x8_1_0_0_1_n_n 128 rfl rfl k
  have el : dot_S64x128_S128x8_S64x8_1_0_0_1_n_n.lhsIdx (ix2 g e) ((ValueIdx.contrEquiv1 dot_S64x128_S128x8_S64x8_1_0_0_1_n_n 128 rfl rfl).symm k) = ix2 g k := funext fun a => Fin.ext (by
    match a with
    | ⟨0, _⟩ => exact kdot_lhs0 _ _
    | ⟨1, _⟩ => exact (kdot_lhs1 _ _).trans hk)
  have er : dot_S64x128_S128x8_S64x8_1_0_0_1_n_n.rhsIdx (ix2 g e) ((ValueIdx.contrEquiv1 dot_S64x128_S128x8_S64x8_1_0_0_1_n_n 128 rfl rfl).symm k) = ix2 k e := funext fun a => Fin.ext (by
    match a with
    | ⟨0, _⟩ => exact (kdot_rhs0 _ _).trans hk
    | ⟨1, _⟩ => exact kdot_rhs1 _ _)
  rw [el, er]

/-- The body's logits: the product of the pooled features with the weights, plus the bias row on every graph. -/
def kernelLogits (p : Vec Ideal S64x128 .f32) (w : Vec Ideal S128x8 .f32) (bk : Vec Ideal S1x8 .f32) : FVec Ideal S64x8 .f32 :=
  addf (matmul dot_S64x128_S128x8_S64x8_1_0_0_1_n_n none (truncf .bf16 (shapeCast S64x128 p shapeCasts_S64x128_S64x128) bitsLt_bf16_f32)
      (truncf .bf16 w bitsLt_bf16_f32) (constant S64x8 .f32 0x00000000#32))
    (broadcastTo S64x8 (shapeCast S1x8 bk shapeCasts_S1x8_S1x8) broadcasts_S1x8_S64x8)

theorem kernelLogits_apply (p : Vec Ideal S64x128 .f32) (w : Vec Ideal S128x8 .f32) (bk : Vec Ideal S1x8 .f32) (g : Fin 64) (e : Fin 8) :
    kernelLogits p w bk (ix2 g e) = (∑ k : Fin 128, p (ix2 g k) * w (ix2 k e)) + bk (ix2 (0 : Fin 1) e) := by
  refine congrArg₂ (· + ·) ?_ ?_
  · refine (kernel_matmul _ _ g e).trans ?_
    rewrite [shapeCast_self]
    rfl
  · rewrite [broadcastTo_1b_ab_apply, shapeCast_self]
    rfl

/-- The body's row maxima. -/
def kernelRowMax (z : FVec Ideal S64x8 .f32) : FVec Ideal S64 .f32 :=
  maximumf (broadcast S64 (Scalar.ofBits (F := Ideal) .f32 0xFF800000#32))
    (multiReduction .maximumf [1] S64 z 0xFF800000#32 reduces_S64x8_S64 (.inl rfl) rfl)

theorem kernelRowMax_apply (z : FVec Ideal S64x8 .f32) (g : Fin 64) : kernelRowMax z (ix1 g) = rowMax z g :=
  congrArg (max negInf) (kernel_rowMax z _ _ _ g)

/-- The body's shifted exponentials. -/
def kernelExp (z : FVec Ideal S64x8 .f32) : FVec Ideal S64x8 .f32 :=
  exp (subf z (broadcastTo S64x8 (shapeCast S64x1 (kernelRowMax z) shapeCasts_S64_S64x1) broadcasts_S64x1_S64x8))

theorem kernelExp_apply (z : FVec Ideal S64x8 .f32) (g : Fin 64) (e : Fin 8) : kernelExp z (ix2 g e) = expShift z g e := by
  show Ideal.exp (z (ix2 g e) - broadcastTo S64x8 (shapeCast S64x1 (kernelRowMax z) shapeCasts_S64_S64x1) broadcasts_S64x1_S64x8 (ix2 g e))
    = Ideal.exp (z (ix2 g e) - rowMax z g)
  rewrite [column_spread, column_cast, kernelRowMax_apply]
  rfl

/-- The body's operations after the logits. -/
def kernelTail (z : FVec Ideal S64x8 .f32) : FVec Ideal S64x8 .f32 :=
  divf (kernelExp z) (broadcastTo S64x8 (shapeCast S64x1
    (multiReduction .add [1] S64 (kernelExp z) 0x00000000#32 reduces_S64x8_S64 (.inl rfl) rfl) shapeCasts_S64_S64x1) broadcasts_S64x1_S64x8)

/-- They are the softmax of the logits. -/
theorem kernelTail_eq (z : FVec Ideal S64x8 .f32) : kernelTail z = softmax z := by
  funext i
  obtain ⟨g, e, rfl⟩ : ∃ (g : Fin 64) (e : Fin 8), i = ix2 g e := ⟨i 0, i 1, eq_ix2 i⟩
  show Ideal.div (kernelExp z (ix2 g e)) (broadcastTo S64x8 (shapeCast S64x1
      (multiReduction .add [1] S64 (kernelExp z) 0x00000000#32 reduces_S64x8_S64 (.inl rfl) rfl) shapeCasts_S64_S64x1) broadcasts_S64x1_S64x8 (ix2 g e))
    = Ideal.div (expShift z g e) (∑ k : Fin 8, expShift z g k)
  rewrite [column_spread, column_cast, kernelExp_apply]
  refine congrArg (Ideal.div _) ?_
  exact (kernel_rowSum (kernelExp z) _ _ _ g).trans (Finset.sum_congr rfl fun k _ => kernelExp_apply z g k)

/-- The body's payload is its operations after the logits, applied to its logits. -/
theorem payload_eq (p : Vec Ideal S64x128 .f32) (w : Vec Ideal S128x8 .f32) (bk : Vec Ideal S1x8 .f32) :
    Gen.k4_pay1 (F := Ideal) p w bk = kernelTail (kernelLogits p w bk) := rfl

end Kernel

/-! ## The reference: its logits, and its softmax as the operations after them -/

section Reference
open Cert.ReferenceIdeal Cert.ReferenceIdeal.Facts₀

theorem rdot_lhs0 (i : S64x8.Idx) (q : dot_S64x128_S128x8_S64x8_1_0_0_1_n_n.contr.Idx) :
    (dot_S64x128_S128x8_S64x8_1_0_0_1_n_n.lhsIdx i q 0).val = (i 0).val := by
  unfold DotDims.lhsIdx
  rw [dif_neg (show ¬(0 : Fin S64x128.rank) ∈ dot_S64x128_S128x8_S64x8_1_0_0_1_n_n.lhsBatch by decide), dif_pos (show (0 : Fin S64x128.rank) ∈ dot_S64x128_S128x8_S64x8_1_0_0_1_n_n.lhsNonContracting by decide)]
  rfl
theorem rdot_lhs1 (i : S64x8.Idx) (q : dot_S64x128_S128x8_S64x8_1_0_0_1_n_n.contr.Idx) :
    (dot_S64x128_S128x8_S64x8_1_0_0_1_n_n.lhsIdx i q 1).val = (q ⟨0, by decide⟩).val :=
  dot_S64x128_S128x8_S64x8_1_0_0_1_n_n.lhsIdx_val_of_single rfl i q
theorem rdot_rhs0 (i : S64x8.Idx) (q : dot_S64x128_S128x8_S64x8_1_0_0_1_n_n.contr.Idx) :
    (dot_S64x128_S128x8_S64x8_1_0_0_1_n_n.rhsIdx i q 0).val = (q ⟨0, by decide⟩).val :=
  dot_S64x128_S128x8_S64x8_1_0_0_1_n_n.rhsIdx_val_of_single rfl i q
theorem rdot_rhs1 (i : S64x8.Idx) (q : dot_S64x128_S128x8_S64x8_1_0_0_1_n_n.contr.Idx) :
    (dot_S64x128_S128x8_S64x8_1_0_0_1_n_n.rhsIdx i q 1).val = (i 1).val := by
  unfold DotDims.rhsIdx
  rw [dif_neg (show ¬(1 : Fin S128x8.rank) ∈ dot_S64x128_S128x8_S64x8_1_0_0_1_n_n.rhsBatch by decide), dif_pos (show (1 : Fin S128x8.rank) ∈ dot_S64x128_S128x8_S64x8_1_0_0_1_n_n.rhsNonContracting by decide)]
  rfl

/-- The reference's matrix product, at (g, e): the sum over the features. -/
theorem host_dot (lhs : FVec Ideal S64x128 .f32) (rhs : FVec Ideal S128x8 .f32) (g : Fin 64) (e : Fin 8) :
    Host.dotGeneral dot_S64x128_S128x8_S64x8_1_0_0_1_n_n none lhs rhs (ix2 g e) = ∑ k : Fin 128, lhs (ix2 g k) * rhs (ix2 k e) := by
  simp only [Host.dotGeneral]
  rw [Ideal.dotGeneral_apply, ← Equiv.sum_comp (ValueIdx.contrEquiv1 dot_S64x128_S128x8_S64x8_1_0_0_1_n_n 128 rfl rfl).symm]
  refine Finset.sum_congr rfl fun k _ => ?_
  have hk := ValueIdx.contrEquiv1_symm_val dot_S64x128_S128x8_S64x8_1_0_0_1_n_n 128 rfl rfl k
  have el : dot_S64x128_S128x8_S64x8_1_0_0_1_n_n.lhsIdx (ix2 g e) ((ValueIdx.contrEquiv1 dot_S64x128_S128x8_S64x8_1_0_0_1_n_n 128 rfl rfl).symm k) = ix2 g k := funext fun a => Fin.ext (by
    match a with
    | ⟨0, _⟩ => exact rdot_lhs0 _ _
    | ⟨1, _⟩ => exact (rdot_lhs1 _ _).trans hk)
  have er : dot_S64x128_S128x8_S64x8_1_0_0_1_n_n.rhsIdx (ix2 g e) ((ValueIdx.contrEquiv1 dot_S64x128_S128x8_S64x8_1_0_0_1_n_n 128 rfl rfl).symm k) = ix2 k e := funext fun a => Fin.ext (by
    match a with
    | ⟨0, _⟩ => exact (rdot_rhs0 _ _).trans hk
    | ⟨1, _⟩ => exact rdot_rhs1 _ _)
  rw [el, er]

/-- The reference's logits: the product of the pooled features with the weights, plus the bias on every graph. -/
def refLogits (p : FVec Ideal S64x128 .f32) (w : FVec Ideal S128x8 .f32) (b : FVec Ideal S8 .f32) : FVec Ideal S64x8 .f32 :=
  addf (Host.dotGeneral dot_S64x128_S128x8_S64x8_1_0_0_1_n_n none p w)
    (broadcastInDim S64x8 ![0, 1] bcast_S1x8_S64x8_0_1 (broadcastInDim S1x8 ![1] bcast_S8_S1x8_1 b))

theorem refLogits_apply (p : FVec Ideal S64x128 .f32) (w : FVec Ideal S128x8 .f32) (b : FVec Ideal S8 .f32) (g : Fin 64) (e : Fin 8) :
    refLogits p w b (ix2 g e) = (∑ k : Fin 128, p (ix2 g k) * w (ix2 k e)) + b (ix1 e) := by
  refine congrArg₂ (· + ·) (host_dot p w g e) ?_
  rewrite [row_spread_inDim, row_inDim]
  rfl

/-- The reference's row maxima. -/
def refRowMax (z : FVec Ideal S64x8 .f32) : FVec Ideal S64 .f32 :=
  maximumf (broadcastInDim S64 ![] bcast_S_S64 (constant (F := Ideal) S_ .f32 0xFF800000#32))
    (Host.reduce FloatOps.maximumf z (constant (F := Ideal) S_ .f32 0xFF800000#32) reducesTo_S64x8_S64_d1 h_S_)

theorem refRowMax_apply (z : FVec Ideal S64x8 .f32) (g : Fin 64) : refRowMax z (ix1 g) = rowMax z g := by
  show max (broadcastInDim S64 ![] bcast_S_S64 (constant (F := Ideal) S_ .f32 0xFF800000#32) (ix1 g))
      (Host.reduce FloatOps.maximumf z (constant (F := Ideal) S_ .f32 0xFF800000#32) reducesTo_S64x8_S64_d1 h_S_ (ix1 g))
    = max negInf ((Finset.univ : Finset (Fin 8)).fold max negInf fun k => z (ix2 g k))
  rewrite [scalar_inDim, host_rowMax]
  rfl

/-- The reference's shifted exponentials. -/
def refExp (z : FVec Ideal S64x8 .f32) : FVec Ideal S64x8 .f32 :=
  Host.exp (subf z (broadcastInDim S64x8 ![0, 1] bcast_S64x1_S64x8_0_1 (broadcastInDim S64x1 ![0] bcast_S64_S64x1_0 (refRowMax z))))

theorem refExp_apply (z : FVec Ideal S64x8 .f32) (g : Fin 64) (e : Fin 8) : refExp z (ix2 g e) = expShift z g e := by
  show Ideal.exp (z (ix2 g e) - broadcastInDim S64x8 ![0, 1] bcast_S64x1_S64x8_0_1 (broadcastInDim S64x1 ![0] bcast_S64_S64x1_0 (refRowMax z)) (ix2 g e))
    = Ideal.exp (z (ix2 g e) - rowMax z g)
  rewrite [column_spread_inDim, column_inDim, refRowMax_apply]
  rfl

/-- The reference's operations after the logits. -/
def refTail (z : FVec Ideal S64x8 .f32) : FVec Ideal S64x8 .f32 :=
  Host.divf (refExp z) (broadcastInDim S64x8 ![0, 1] bcast_S64x1_S64x8_0_1 (broadcastInDim S64x1 ![0] bcast_S64_S64x1_0
    (Host.reduceAdd (refExp z) (constant (F := Ideal) S_ .f32 0x00000000#32) reducesTo_S64x8_S64_d1 h_S_)))

/-- They are the softmax of the logits. -/
theorem refTail_eq (z : FVec Ideal S64x8 .f32) : refTail z = softmax z := by
  funext i
  obtain ⟨g, e, rfl⟩ : ∃ (g : Fin 64) (e : Fin 8), i = ix2 g e := ⟨i 0, i 1, eq_ix2 i⟩
  show Ideal.div (refExp z (ix2 g e)) (broadcastInDim S64x8 ![0, 1] bcast_S64x1_S64x8_0_1 (broadcastInDim S64x1 ![0] bcast_S64_S64x1_0
      (Host.reduceAdd (refExp z) (constant (F := Ideal) S_ .f32 0x00000000#32) reducesTo_S64x8_S64_d1 h_S_)) (ix2 g e))
    = Ideal.div (expShift z g e) (∑ k : Fin 8, expShift z g k)
  rewrite [column_spread_inDim, column_inDim, refExp_apply]
  refine congrArg (Ideal.div _) ?_
  exact (host_rowSum (refExp z) _ _ g).trans (Finset.sum_congr rfl fun k _ => refExp_apply z g k)

/-- THE REFERENCE'S GATE: its operations from the matrix product to the quotient, applied to the pooled features `p`,
    the weights `w` and the bias `b`. -/
def refGate (p : FVec Ideal S64x128 .f32) (w : FVec Ideal S128x8 .f32) (b : FVec Ideal S8 .f32) : FVec Ideal S64x8 .f32 :=
  refTail (refLogits p w b)

end Reference

/-! ## The bridge -/

/-- The two programs' logits agree: the kernel program's bias row is the bias vector viewed as one row. -/
theorem logits_eq (p : FVec Ideal Cert.ReferenceIdeal.S64x128 .f32) (w : FVec Ideal Cert.ReferenceIdeal.S128x8 .f32)
    (b : FVec Ideal Cert.ReferenceIdeal.S8 .f32) :
    kernelLogits p w (shapeCast Cert.KernelIdeal.S1x8 b Cert.KernelIdeal.Facts₀.shapeCasts_S8_S1x8) = refLogits p w b := by
  funext i
  obtain ⟨g, e, rfl⟩ : ∃ (g : Fin 64) (e : Fin 8), i = ix2 g e := ⟨i 0, i 1, eq_ix2 i⟩
  rewrite [kernelLogits_apply, refLogits_apply, shapeCast_a_1a_apply]
  rfl

/-- THE GATE, KERNEL AGAINST REFERENCE: the kernel body's payload of the pooled features, the weights and the bias
    viewed as one row is the reference's gate of the pooled features, the weights and the bias. -/
theorem gate_eq (p : FVec Ideal Cert.ReferenceIdeal.S64x128 .f32) (w : FVec Ideal Cert.ReferenceIdeal.S128x8 .f32)
    (b : FVec Ideal Cert.ReferenceIdeal.S8 .f32) :
    Cert.KernelIdeal.Gen.k4_pay1 (F := Ideal) p w (shapeCast Cert.KernelIdeal.S1x8 b Cert.KernelIdeal.Facts₀.shapeCasts_S8_S1x8)
      = refGate p w b :=
  (payload_eq p w _).trans ((kernelTail_eq _).trans ((congrArg softmax (logits_eq p w b)).trans (refTail_eq _).symm))

/-- The reference program's value %113 is its gate of its pooled features %98, its weights and its bias. -/
theorem val_v113_eq (x0 : (⟨Cert.ReferenceIdeal.S100000, .f32⟩ : BufTy).Contents (Elt Ideal)) (x1 : (⟨Cert.ReferenceIdeal.S100000x3, .f32⟩ : BufTy).Contents (Elt Ideal))
    (x2 : (⟨Cert.ReferenceIdeal.S4x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal))
    (x8 : (⟨Cert.ReferenceIdeal.S128x8, .f32⟩ : BufTy).Contents (Elt Ideal)) (x9 : (⟨Cert.ReferenceIdeal.S8, .f32⟩ : BufTy).Contents (Elt Ideal))
    (x10 : (⟨Cert.ReferenceIdeal.S2x1600000, .i32⟩ : BufTy).Contents (Elt Ideal)) (x11 : (⟨Cert.ReferenceIdeal.S100000, .i32⟩ : BufTy).Contents (Elt Ideal)) :
    Cert.ReferenceIdeal.ReadP.val_main_v113 (F := Ideal) x0 x1 x2 x3 x4 x5 x6 x7 x8 x9 x10 x11
      = refGate (Cert.ReferenceIdeal.ReadP.val_main_v98 (F := Ideal) x0 x1 x2 x3 x4 x5 x6 x7 x10 x11) x8 x9 := rfl

end Cert.GateRef

end
-- ==== Proof.ChainResult.lean ====
/-
  The end of the idealized kernel program's run, as the reference's last stages of the arguments.  After region
  3 the host pools the node rows per graph (a scatter-add by the graph index), divides by the clamped counts and
  reshapes the gate's bias — the reference's own operations on the reference's third activation; region 4 applies
  the linear gate and the softmax, which is the reference's gate of the pooled rows; the last host operation
  appends a unit axis.  So the result buffer ends at the reference's result of the arguments.
-/
import proofs.«119056_j34703335751945_2_alg».proof.Proof.Gen.KernelIdeal.Frame
import proofs.«119056_j34703335751945_2_alg».proof.Proof.RefReadP
import proofs.«119056_j34703335751945_2_alg».proof.Proof.ChainLayers
import proofs.«119056_j34703335751945_2_alg».proof.Proof.GateRegion
import proofs.«119056_j34703335751945_2_alg».proof.Proof.GateRef
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem keep_arg11_0_10 : W10 (F := Ideal) m ρ c (Proc.devRef .tc main_arg11) = W0 (F := Ideal) m ρ c (Proc.devRef .tc main_arg11) :=
  calc W10 (F := Ideal) m ρ c (Proc.devRef .tc main_arg11)
    _ = W9 (F := Ideal) m ρ c (Proc.devRef .tc main_arg11) := W10_of_ne m ρ c main_arg11 (by decide)
    _ = W8 (F := Ideal) m ρ c (Proc.devRef .tc main_arg11) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W7 (F := Ideal) m ρ c (Proc.devRef .tc main_arg11) := W8_of_ne m ρ c main_arg11 (by decide)
    _ = W6 (F := Ideal) m ρ c (Proc.devRef .tc main_arg11) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_arg11) := W6_of_ne m ρ c main_arg11 (by decide)
    _ = W4 (F := Ideal) m ρ c (Proc.devRef .tc main_arg11) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_arg11) := W4_of_ne m ρ c main_arg11 (by decide)
    _ = W2 (F := Ideal) m ρ c (Proc.devRef .tc main_arg11) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg11) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg11) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_arg9_0_10 : W10 (F := Ideal) m ρ c (Proc.devRef .tc main_arg9) = W0 (F := Ideal) m ρ c (Proc.devRef .tc main_arg9) :=
  calc W10 (F := Ideal) m ρ c (Proc.devRef .tc main_arg9)
    _ = W9 (F := Ideal) m ρ c (Proc.devRef .tc main_arg9) := W10_of_ne m ρ c main_arg9 (by decide)
    _ = W8 (F := Ideal) m ρ c (Proc.devRef .tc main_arg9) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W7 (F := Ideal) m ρ c (Proc.devRef .tc main_arg9) := W8_of_ne m ρ c main_arg9 (by decide)
    _ = W6 (F := Ideal) m ρ c (Proc.devRef .tc main_arg9) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_arg9) := W6_of_ne m ρ c main_arg9 (by decide)
    _ = W4 (F := Ideal) m ρ c (Proc.devRef .tc main_arg9) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_arg9) := W4_of_ne m ρ c main_arg9 (by decide)
    _ = W2 (F := Ideal) m ρ c (Proc.devRef .tc main_arg9) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg9) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg9) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem keep_arg8_0_11 : W11 (F := Ideal) m ρ c (Proc.devRef .tc main_arg8) = W0 (F := Ideal) m ρ c (Proc.devRef .tc main_arg8) :=
  calc W11 (F := Ideal) m ρ c (Proc.devRef .tc main_arg8)
    _ = W10 (F := Ideal) m ρ c (Proc.devRef .tc main_arg8) := StableHlo.after_of_forall_not_mem _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W9 (F := Ideal) m ρ c (Proc.devRef .tc main_arg8) := W10_of_ne m ρ c main_arg8 (by decide)
    _ = W8 (F := Ideal) m ρ c (Proc.devRef .tc main_arg8) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W7 (F := Ideal) m ρ c (Proc.devRef .tc main_arg8) := W8_of_ne m ρ c main_arg8 (by decide)
    _ = W6 (F := Ideal) m ρ c (Proc.devRef .tc main_arg8) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W5 (F := Ideal) m ρ c (Proc.devRef .tc main_arg8) := W6_of_ne m ρ c main_arg8 (by decide)
    _ = W4 (F := Ideal) m ρ c (Proc.devRef .tc main_arg8) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W3 (F := Ideal) m ρ c (Proc.devRef .tc main_arg8) := W4_of_ne m ρ c main_arg8 (by decide)
    _ = W2 (F := Ideal) m ρ c (Proc.devRef .tc main_arg8) := StableHlo.after_of_forall_not_mem _ _ (List.forall_iff_forall_mem.mp (by
      simp only [hostOps0_2, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 (F := Ideal) m ρ c (Proc.devRef .tc main_arg8) := StableHlo.after_of_forall_not_mem _ _ (List.forall_iff_forall_mem.mp (by
      simp only [hostOps0_1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W0 (F := Ideal) m ρ c (Proc.devRef .tc main_arg8) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

set_option maxHeartbeats 1000000 in
/-- The pooled rows: the reference's stage `val_main_v98`. -/
theorem pooled : W11 (F := Ideal) m ρ c (Proc.devRef .tc main_v67)
    = Cert.ReferenceIdeal.ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) := by
  dsimp only [W11]
  generalize hV : W10 (F := Ideal) m ρ c = V'
  after_results_simp
  subst hV
  rw [activation2, keep_arg11_0_10]
  rfl

set_option maxHeartbeats 1000000 in
/-- The gate's bias as a row. -/
theorem gateBias : W11 (F := Ideal) m ρ c (Proc.devRef .tc main_v68)
    = shapeCast S1x8 (m ((c.tc : Thread nD τ).loc main_arg9)) shapeCasts_S8_S1x8 := by
  dsimp only [W11]
  generalize hV : W10 (F := Ideal) m ρ c = V'
  after_results_simp
  subst hV
  rw [keep_arg9_0_10]
  rfl

/-- Region 4 leaves the reference's gate. -/
theorem gate : W12 (F := Ideal) m ρ c (Proc.devRef .tc main_v69)
    = Cert.ReferenceIdeal.ReadP.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W12_arr m ρ c 3).trans ((Cert.KernelIdeal.GateRegion.array4 (V11 m ρ) c).trans ?_)
  show k4_pay1 (F := Ideal) (W11 (F := Ideal) m ρ c (Proc.devRef .tc main_v67)) (W11 (F := Ideal) m ρ c (Proc.devRef .tc main_arg8)) (W11 (F := Ideal) m ρ c (Proc.devRef .tc main_v68)) = _
  rw [pooled, keep_arg8_0_11, gateBias]
  exact (Cert.GateRef.gate_eq _ _ _).trans (Cert.GateRef.val_v113_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).symm

set_option maxHeartbeats 1000000 in
/-- The result buffer ends at the reference's result of the arguments. -/
theorem result : W13 (F := Ideal) m ρ c (Proc.devRef .tc main_v70)
    = Cert.ReferenceIdeal.ReadP.val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  dsimp only [W13]
  generalize hV : W12 (F := Ideal) m ρ c = V'
  after_results_simp
  subst hV
  rw [gate]
  rfl

end Cert.KernelIdeal.Chain

end
-- ==== Proof.Assembly.lean ====
/-
  The five claims, assembled.  The three frames are the programs' runs with the result forgotten.  The ideal
  pass's ledger of rewrites is empty, so its claim is `True`.  The value claim sets two runs side by side over the extended reals: the
  kernel's run ends with its result buffer at the contents its last boundary holds, which the chain through the
  five regions and the host stretches identifies with the reference's last stage of the kernel's arguments; the
  reference's run ends at that stage of its own arguments; and the two memories agree on the arguments one by one.
-/
import proofs.«119056_j34703335751945_2_alg».proof.Defs
import proofs.«119056_j34703335751945_2_alg».proof.Proof.Gen.Kernel.Frame
import proofs.«119056_j34703335751945_2_alg».proof.Proof.Gen.KernelIdeal.Frame
import proofs.«119056_j34703335751945_2_alg».proof.Proof.Gen.ReferenceIdeal
import proofs.«119056_j34703335751945_2_alg».proof.Proof.Gen.Pre_finite_inputs
import proofs.«119056_j34703335751945_2_alg».proof.Proof.KernelRun
import proofs.«119056_j34703335751945_2_alg».proof.Proof.RefRunP
import proofs.«119056_j34703335751945_2_alg».proof.Proof.RefReadP
import proofs.«119056_j34703335751945_2_alg».proof.Proof.ChainResult

noncomputable section

namespace Cert.Proof.Claims

open Idealize.ShloMosaic Idealize.ShloMosaic.TcCoe Idealize.SL.Sem

/-- The bit-exact kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result named, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass's ledger of rewrites is empty: the claim is `True`. -/
theorem preserves : Cert.preserves_Kernel_KernelIdeal := trivial

/-- Over the extended reals the kernel's result array and the reference's are one function of the arguments: the
    reference's last stage.  The kernel's run ends with its result buffer at the last boundary's contents, which the
    chain of the five regions and the host stretches between them identifies with that stage of the kernel's arguments;
    the reference's run ends at the same stage of its own arguments, which agree with the kernel's one by one. -/
theorem algebraic : Cert.algebraic_KernelIdeal_ReferenceIdeal := by
  intro m ρ m' ρ' _ hagree
  refine ⟨fun c => Cert.ReferenceIdeal.ReadP.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    (θ_run Cert.KernelIdeal.defs _ _).mono (fun _ h c => ⟨(h c).1.trans (Cert.KernelIdeal.Chain.result m ρ c), (h c).2⟩)
      (Cert.KernelIdeal.Run.run_result (F := Ideal) m ρ), ?_⟩
  refine (θ_run Cert.ReferenceIdeal.defs _ _).mono (fun _ h c => ⟨(h c).1.trans ((Cert.ReferenceIdeal.ReadP.val_main_v114_eq m' c).trans ?_), (h c).2⟩)
    (Cert.ReferenceIdeal.ValueP.run (F := Ideal) m' ρ')
  obtain ⟨h0, h1, h2, h3, h4, h5, h6, h7, h8, h9, h10, h11⟩ := hagree c
  rw [h0, h1, h2, h3, h4, h5, h6, h7, h8, h9, h10, h11]

end Cert.Proof.Claims

end
-- ==== Proof.lean ====
/-
  A three-layer graph convolution network over 100000 nodes and 1700000 edges (the 1600000 given edges and one
  self loop per node), a mean pool over 64 graphs and a softmax gate over 8 experts: the kernel program against
  its plain reference, over the extended reals.

  Both programs compute, by the same host operations, the node features `x` (the atomic number beside the
  position), the edge lists `src` and `dst`, the degree `deg n` (the sum of a one for every edge whose target
  is `n`; an edge whose target lies outside `[0, 100000)` counts nowhere) and the node factor
  `d n = deg n ^ (-1/2)` where `deg n > 0`, else `0`.

  The reference's layer multiplies by the weights, `H = x · W`, gathers `H`'s rows along the edges, scales edge
  `e`'s row by `d (src e) · d (dst e)`, adds the rows into their targets, adds the bias and clamps at zero.  The
  kernel scales row `n` of `H` by `d n` inside its region, gathers and adds the rows unscaled on the host, and in
  its next region scales row `n` of the sum by `d n` before the bias and the clamp (and goes straight on to the
  next product).  The two agree because (i) an edge the sum keeps lands on the very row the target gather
  reads, and an edge it drops contributes to neither side; (ii) `0 ≤ d n < ⊤` at every extended real degree, and
  multiplication by such a factor distributes over a finite sum of extended reals.  No finiteness of the features
  is needed, so the precondition is never opened.  After the third layer both programs pool and gate by the same
  operations, the kernel's last region being the reference's linear gate and softmax spelt with block operations.

  The frames are the programs' runs with the result forgotten; the ideal pass's ledger of rewrites is empty, so
  its claim is `True`; the value claim puts the kernel's run — its result read off the last boundary of the run
  and identified stage by stage with the reference's stages — beside the reference's run.
-/
import proofs.«119056_j34703335751945_2_alg».proof.Defs
import proofs.«119056_j34703335751945_2_alg».proof.Proof.Gen.Kernel
import proofs.«119056_j34703335751945_2_alg».proof.Proof.Gen.KernelIdeal
import proofs.«119056_j34703335751945_2_alg».proof.Proof.Gen.ReferenceIdeal
import proofs.«119056_j34703335751945_2_alg».proof.Proof.Gen.Pre_finite_inputs
import proofs.«119056_j34703335751945_2_alg».proof.Proof.Assembly

noncomputable section

namespace Cert.Proof

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
